-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128x64 : Shape := ⟨2, ![128, 64]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 58
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S100000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S128x64, .f32⟩
  | .hbm, ⟨38, _⟩ => ⟨S100000x128, .f32⟩
  | .hbm, ⟨39, _⟩ => ⟨S100000x64, .f32⟩
  | .hbm, ⟨40, _⟩ => ⟨S100000x64, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .bf16⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S128x64, .f32⟩
  | .hbm, ⟨56, _⟩ => ⟨S1x64, .f32⟩
  | .hbm, ⟨57, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S2000x128, .f32⟩
  | .local _ .vmem, ⟨11, _⟩ => ⟨S2000x128, .f32⟩
  | .local _ .vmem, ⟨12, _⟩ => ⟨S2000x64, .f32⟩
  | .local _ .vmem, ⟨13, _⟩ => ⟨S2000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S1x64, .f32⟩
  | .local _ .vmem, ⟨21, _⟩ => ⟨S128x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  transposes_S64x128_S128x64_1_0 : S64x128.Transposes [1, 0] S128x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S100000x64.size a
  hwx0_8 : ∀ i : grid0.Coords, EltTy.bits .f32 = 32 ∨ (Rect.block (s := S100000x64) S2000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result named: every weakly fair execution of the program ends with
  the result array holding what the second pipeline's write-backs leave in it (the contents at the last segment
  boundary), and with the argument arrays as launched.
-/
import proofs.«144126_j10694468567472_2_alg».proof.Proof.Gen.KernelIdeal.Frame

-- membership in a rectangle of production extents (`View.cover_of_tiled`): the elaborator's structural look
-- recurses once per coordinate of the long axes
set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the four segments (host operations, first pipeline, host operations, second pipeline) from the
    launch memory: the last thread state holds every unscoped buffer at the last boundary's contents, and the final
    state is read against it at the result buffer and at each argument. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.Payloads.lean ====
/-
  The first kernel body's two stored values read at an entry, over blocks of real numbers.

  At row `p` the body divides the aggregate block's row by `max (deg p) 1`, multiplies by the left weights,
  adds the bias row, adds the feature block's row times the right weights, and clips below at zero; the
  second stored value is that hidden row times the second layer's left weights.
-/
import proofs.«144126_j10694468567472_2_alg».proof.Proof.Gen.KernelIdeal.Skeleton
import proofs.«144126_j10694468567472_2_alg».proof.Proof.LibPlainMatmul
import proofs.«144126_j10694468567472_2_alg».proof.Proof.LibRows
import proofs.«144126_j10694468567472_2_alg».proof.Proof.LibERealSums
import proofs.«144126_j10694468567472_2_alg».proof.Proof.LibIdealReal
import Idealize.ShloMosaic.Lib.Pipeline.Value

noncomputable section

open Idealize.ShloMosaic Idealize.ShloMosaic.ValueIdx Cert.KernelIdeal Cert.KernelIdeal.Gen

namespace Cert.KernelValue

variable [Cert.KernelIdeal.Facts]

/-- The hidden row `p` at column `q`, over the reals. -/
def hidBlock {R : Nat} (a : Fin R → Fin 128 → ℝ) (d : Fin R → ℝ) (xb : Fin R → Fin 128 → ℝ)
    (wl wr : Fin 128 → Fin 128 → ℝ) (b : Fin 128 → ℝ) (p : Fin R) (q : Fin 128) : ℝ :=
  max (∑ k, a p k / max (d p) 1 * wl k q + b q + ∑ k, xb p k * wr k q) 0

/-- The divisor `max (d p) 1` is at least one, hence not zero. -/
theorem max_one_ne_zero (x : ℝ) : max x 1 ≠ 0 :=
  ne_of_gt (lt_of_lt_of_le one_pos (le_max_right x 1))

/-- The coercion of reals into the extended reals is monotone, so it commutes with `max`. -/
theorem coe_max (x y : ℝ) : ((max x y : ℝ) : EReal) = max (x : EReal) (y : EReal) :=
  EReal.coe_strictMono.monotone.map_max

/-- The first stored value at `(p, q)`. -/
theorem pay1_apply
    (v0 : Vec Ideal S2000x128 .f32) (v2 : Vec Ideal S2000x1 .f32) (v4 : Vec Ideal S2000x128 .f32)
    (v9 v12 : Vec Ideal S128x128 .f32) (v15 : Vec Ideal S1x128 .f32)
    (a : Fin 2000 → Fin 128 → ℝ) (d : Fin 2000 → ℝ) (xb : Fin 2000 → Fin 128 → ℝ)
    (wl wr : Fin 128 → Fin 128 → ℝ) (b : Fin 128 → ℝ)
    (h0 : ∀ p k, v0 (ix2 p k) = ((a p k : ℝ) : EReal)) (h2 : ∀ p, v2 (ix2 p 0) = ((d p : ℝ) : EReal))
    (h4 : ∀ p k, v4 (ix2 p k) = ((xb p k : ℝ) : EReal)) (h9 : ∀ k q, v9 (ix2 k q) = ((wl k q : ℝ) : EReal))
    (h12 : ∀ k q, v12 (ix2 k q) = ((wr k q : ℝ) : EReal)) (h15 : ∀ q, v15 (ix2 0 q) = ((b q : ℝ) : EReal))
    (p : Fin 2000) (q : Fin 128) :
    k0_pay1 (F := Ideal) v0 v2 v4 v9 v12 v15 (ix2 p q) = ((hidBlock a d xb wl wr b p q : ℝ) : EReal) := by
  unfold k0_pay1 hidBlock
  simp only [maximumf_apply, addf_apply, broadcast_apply, shapeCast_self]
  rw [coe_max, EReal.coe_add, EReal.coe_add, EReal.coe_zero]
  refine congrArg₂ max (congrArg₂ (· + ·) (congrArg₂ (· + ·) ?_ ?_) ?_) ?_
  · -- the aggregate row over the clipped degree, times the left weights
    refine (Cert.LibPlainMatmul.matmul_zero_apply dot_S2000x128_S128x128_S2000x128_1_0_0_1_n_n
      rfl rfl rfl rfl rfl rfl none _ _ p q).trans ?_
    refine Cert.LibERealSums.sum_eq_coe _ _ _ fun k _ => ?_
    rw [truncf_apply, truncf_apply, divf_apply, Cert.Rows.bcast_col (by decide), maximumf_apply, broadcast_apply,
      h0, h2, h9]
    show Ideal.div ((a p k : ℝ) : EReal) (max ((d p : ℝ) : EReal) (Ideal.ofBits .f32 0x3F800000#32)) * _ = _
    rw [Cert.IdealReal.ofBits_one_f32, ← EReal.coe_one, ← coe_max,
      Cert.IdealReal.div_coe_coe (max_one_ne_zero (d p)), ← EReal.coe_mul]
  · -- the bias row
    rw [Cert.Rows.bcast_row (by decide), h15]
  · -- the feature row times the right weights
    refine (Cert.LibPlainMatmul.matmul_zero_apply dot_S2000x128_S128x128_S2000x128_1_0_0_1_n_n
      rfl rfl rfl rfl rfl rfl none _ _ p q).trans ?_
    refine Cert.LibERealSums.sum_eq_coe _ _ _ fun k _ => ?_
    rw [truncf_apply, truncf_apply, h4, h12, ← EReal.coe_mul]
  · exact Ideal.ofBits_zero_f32

/-- The second stored value at `(p, j)`. -/
theorem pay2_apply
    (v0 : Vec Ideal S2000x128 .f32) (v2 : Vec Ideal S2000x1 .f32) (v4 : Vec Ideal S2000x128 .f32)
    (v9 v12 : Vec Ideal S128x128 .f32) (v15 : Vec Ideal S1x128 .f32) (v26 : Vec Ideal S128x64 .f32)
    (a : Fin 2000 → Fin 128 → ℝ) (d : Fin 2000 → ℝ) (xb : Fin 2000 → Fin 128 → ℝ)
    (wl wr : Fin 128 → Fin 128 → ℝ) (b : Fin 128 → ℝ) (wl2 : Fin 128 → Fin 64 → ℝ)
    (h0 : ∀ p k, v0 (ix2 p k) = ((a p k : ℝ) : EReal)) (h2 : ∀ p, v2 (ix2 p 0) = ((d p : ℝ) : EReal))
    (h4 : ∀ p k, v4 (ix2 p k) = ((xb p k : ℝ) : EReal)) (h9 : ∀ k q, v9 (ix2 k q) = ((wl k q : ℝ) : EReal))
    (h12 : ∀ k q, v12 (ix2 k q) = ((wr k q : ℝ) : EReal)) (h15 : ∀ q, v15 (ix2 0 q) = ((b q : ℝ) : EReal))
    (h26 : ∀ k j, v26 (ix2 k j) = ((wl2 k j : ℝ) : EReal))
    (p : Fin 2000) (j : Fin 64) :
    k0_pay2 (F := Ideal) v0 v2 v4 v9 v12 v15 v26 (ix2 p j)
      = ((∑ k, hidBlock a d xb wl wr b p k * wl2 k j : ℝ) : EReal) := by
  unfold k0_pay2
  simp only [shapeCast_self]
  refine (Cert.LibPlainMatmul.matmul_zero_apply dot_S2000x128_S128x64_S2000x64_1_0_0_1_n_n
    rfl rfl rfl rfl rfl rfl none _ _ p j).trans ?_
  refine Cert.LibERealSums.sum_eq_coe _ _ _ fun k _ => ?_
  rw [truncf_apply, truncf_apply, pay1_apply v0 v2 v4 v9 v12 v15 a d xb wl wr b h0 h2 h4 h9 h12 h15 p k, h26,
    ← EReal.coe_mul]

/-- The second kernel body's stored value at `(p, j)`: the aggregate row over `max (deg p) 1`, plus the bias
    row, plus the hidden block's row times the right weights. -/
theorem pay_out_apply
    (v0 : Vec Ideal S5000x64 .f32) (v2 : Vec Ideal S5000x1 .f32) (v4 : Vec Ideal S5000x128 .f32)
    (v10 : Vec Ideal S128x64 .f32) (v13 : Vec Ideal S1x64 .f32)
    (a : Fin 5000 → Fin 64 → ℝ) (d : Fin 5000 → ℝ) (hb : Fin 5000 → Fin 128 → ℝ)
    (wr : Fin 128 → Fin 64 → ℝ) (b : Fin 64 → ℝ)
    (h0 : ∀ p j, v0 (ix2 p j) = ((a p j : ℝ) : EReal)) (h2 : ∀ p, v2 (ix2 p 0) = ((d p : ℝ) : EReal))
    (h4 : ∀ p k, v4 (ix2 p k) = ((hb p k : ℝ) : EReal)) (h10 : ∀ k j, v10 (ix2 k j) = ((wr k j : ℝ) : EReal))
    (h13 : ∀ j, v13 (ix2 0 j) = ((b j : ℝ) : EReal))
    (p : Fin 5000) (j : Fin 64) :
    k1_pay1 (F := Ideal) v0 v2 v4 v10 v13 (ix2 p j)
      = ((a p j / max (d p) 1 + b j + ∑ k, hb p k * wr k j : ℝ) : EReal) := by
  unfold k1_pay1
  simp only [addf_apply, shapeCast_self]
  rw [EReal.coe_add, EReal.coe_add]
  refine congrArg₂ (· + ·) (congrArg₂ (· + ·) ?_ ?_) ?_
  · -- the aggregate entry over the clipped degree
    rw [divf_apply, Cert.Rows.bcast_col (by decide), maximumf_apply, broadcast_apply, h0, h2]
    show Ideal.div ((a p j : ℝ) : EReal) (max ((d p : ℝ) : EReal) (Ideal.ofBits .f32 0x3F800000#32)) = _
    rw [Cert.IdealReal.ofBits_one_f32, ← EReal.coe_one, ← coe_max,
      Cert.IdealReal.div_coe_coe (max_one_ne_zero (d p))]
  · -- the bias row
    rw [Cert.Rows.bcast_row (by decide), h13]
  · -- the hidden row times the right weights
    refine (Cert.LibPlainMatmul.matmul_zero_apply dot_S5000x128_S128x64_S5000x64_1_0_0_1_n_n
      rfl rfl rfl rfl rfl rfl none _ _ p j).trans ?_
    refine Cert.LibERealSums.sum_eq_coe _ _ _ fun k _ => ?_
    rw [truncf_apply, truncf_apply, h4, h10, ← EReal.coe_mul]

end Cert.KernelValue

end
-- ==== Proof.Regions.lean ====
/-
  What each pipeline's write-backs leave in its output arrays, as whole arrays of real numbers.

  The first pipeline walks the node rows in blocks of 2000: block `t` of each output is the body's stored
  value of block `t` of the aggregate, degree and feature arrays and of the whole weight arrays, and the
  50 blocks tile the 100000 rows. The second pipeline walks them in blocks of 5000, 20 blocks.
-/
import proofs.«144126_j10694468567472_2_alg».proof.Proof.Gen.KernelIdeal.Frame
import proofs.«144126_j10694468567472_2_alg».proof.Proof.Payloads
import proofs.«144126_j10694468567472_2_alg».proof.Proof.LibIdealReal
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.IdealReal

namespace Cert.KernelValue

/-! ## Block by block

Each window's block at a grid point is read off its array: a row-blocked window at point `t` holds rows
`t * size … t * size + size - 1`, a weight or bias window holds its whole array at every point. What a point writes
back is the body's stored value of those blocks, which is the same rows of the real formula; the blocks tile the
rows (row `r` lies in block `r / size`), so after all write-backs the array is the formula on every row. -/

namespace Regions

section Blocks

variable (V : (c : Dev nD) → (b : Ref sig .tc) → Buf (Elt Ideal) ((c : Thread nD τ).loc b))

/-- The offset `(0, 0)` is the zero offset. -/
theorem hz2 : (![0, 0] : Fin 2 → Nat) = fun _ => 0 := funext fun a => by fin_cases a <;> rfl

/-- The first pipeline's index maps over its 50 points: the row-blocked windows sit at block `(t, 0)`, the weight
    windows at block `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Block `t` of the aggregate window, at row `p`, is row `t * 2000 + p` of the aggregate. -/
theorem iblk0_0_apply (c : Dev nD) (t : Fin cfg0.N) (A : Fin 100000 → Fin 128 → ℝ) (hA : V c main_v20 = lift2 A)
    (p : Fin 2000) (k : Fin 128) (r : Fin 100000) (hr : r.val = t.val * 2000 + p.val) :
    (iblk0 (F := Ideal) V c 0 t : Vec Ideal S2000x128 .f32) (ix2 p k) = ((A r k : ℝ) : EReal) := by
  unfold iblk0
  rw [View.read_apply]
  show V c main_v20 (((cfg0.win 0).blk t).view.emb (ix2 p k)) = _
  rw [hA]
  have he : ((cfg0.win 0).blk t).view.emb (ix2 p k) = ix2 r k := by
    funext a; apply Fin.ext
    match a with
    | ⟨0, _⟩ => show win0_0.index t (0 : Fin 2) * 2000 + 1 * p.val = r.val; rw [(idx_facts0 t).1.1, hr]; omega
    | ⟨1, _⟩ => show win0_0.index t (1 : Fin 2) * 128 + 1 * k.val = k.val; rw [(idx_facts0 t).1.2]; omega
  rw [he, lift2_ix2]

/-- Row `p` of block `t` of a 100000-row array cut in blocks of 2000 rows. -/
def row0 (t : Fin cfg0.N) (p : Fin 2000) : Fin 100000 :=
  ⟨t.val * 2000 + p.val, by have hN : cfg0.N = 50 := N_0; have := t.isLt; have := p.isLt; omega⟩

/-- Block `t` of the degree window, at row `p`, is the degree of row `t * 2000 + p`. -/
theorem iblk0_1_apply (c : Dev nD) (t : Fin cfg0.N) (dg : Fin 100000 → ℝ)
    (hd : V c main_v8 = lift2 (fun r (_ : Fin 1) => dg r))
    (p : Fin 2000) (r : Fin 100000) (hr : r.val = t.val * 2000 + p.val) :
    (iblk0 (F := Ideal) V c 1 t : Vec Ideal S2000x1 .f32) (ix2 p 0) = ((dg r : ℝ) : EReal) := by
  unfold iblk0
  rw [View.read_apply]
  show V c main_v8 (((cfg0.win 1).blk t).view.emb (ix2 p 0)) = _
  rw [hd]
  have he : ((cfg0.win 1).blk t).view.emb (ix2 p 0) = ix2 r 0 := by
    funext a; apply Fin.ext
    match a with
    | ⟨0, _⟩ => show win0_1.index t (0 : Fin 2) * 2000 + 1 * p.val = r.val; rw [(idx_facts0 t).2.1.1, hr]; omega
    | ⟨1, _⟩ => show win0_1.index t (1 : Fin 2) * 1 + 1 * 0 = 0; rw [(idx_facts0 t).2.1.2]
  rw [he, lift2_ix2]

/-- Block `t` of the feature window, at row `p`, is row `t * 2000 + p` of the features. -/
theorem iblk0_2_apply (c : Dev nD) (t : Fin cfg0.N) (X : Fin 100000 → Fin 128 → ℝ) (hX : V c main_arg0 = lift2 X)
    (p : Fin 2000) (k : Fin 128) (r : Fin 100000) (hr : r.val = t.val * 2000 + p.val) :
    (iblk0 (F := Ideal) V c 2 t : Vec Ideal S2000x128 .f32) (ix2 p k) = ((X r k : ℝ) : EReal) := by
  unfold iblk0
  rw [View.read_apply]
  show V c main_arg0 (((cfg0.win 2).blk t).view.emb (ix2 p k)) = _
  rw [hX]
  have he : ((cfg0.win 2).blk t).view.emb (ix2 p k) = ix2 r k := by
    funext a; apply Fin.ext
    match a with
    | ⟨0, _⟩ => show win0_2.index t (0 : Fin 2) * 2000 + 1 * p.val = r.val; rw [(idx_facts0 t).2.2.1.1, hr]; omega
    | ⟨1, _⟩ => show win0_2.index t (1 : Fin 2) * 128 + 1 * k.val = k.val; rw [(idx_facts0 t).2.2.1.2]; omega
  rw [he, lift2_ix2]

/-- The left-weight window's block is the whole left-weight matrix at every point. -/
theorem iblk0_3_apply (c : Dev nD) (t : Fin cfg0.N) (wl : Fin 128 → Fin 128 → ℝ) (hwl : V c main_v21 = lift2 wl)
    (k q : Fin 128) :
    (iblk0 (F := Ideal) V c 3 t : Vec Ideal S128x128 .f32) (ix2 k q) = ((wl k q : ℝ) : EReal) := by
  unfold iblk0
  rw [View.read_apply]
  show V c main_v21 (((cfg0.win 3).blk t).view.emb (ix2 k q)) = _
  rw [hwl]
  have he : ((cfg0.win 3).blk t).view.emb (ix2 k q) = ix2 k q := by
    funext a; apply Fin.ext
    match a with
    | ⟨0, _⟩ => show win0_3.index t (0 : Fin 2) * 128 + 1 * k.val = k.val; rw [(idx_facts0 t).2.2.2.1.1]; omega
    | ⟨1, _⟩ => show win0_3.index t (1 : Fin 2) * 128 + 1 * q.val = q.val; rw [(idx_facts0 t).2.2.2.1.2]; omega
  rw [he, lift2_ix2]

/-- The bias window's block is the whole bias row at every point. -/
theorem iblk0_4_apply (c : Dev nD) (t : Fin cfg0.N) (b : Fin 128 → ℝ)
    (hb : V c main_v23 = lift2 (fun (_ : Fin 1) q => b q)) (q : Fin 128) :
    (iblk0 (F := Ideal) V c 4 t : Vec Ideal S1x128 .f32) (ix2 0 q) = ((b q : ℝ) : EReal) := by
  unfold iblk0
  rw [View.read_apply]
  show V c main_v23 (((cfg0.win 4).blk t).view.emb (ix2 0 q)) = _
  rw [hb]
  have he : ((cfg0.win 4).blk t).view.emb (ix2 0 q) = ix2 0 q := by
    funext a; apply Fin.ext
    match a with
    | ⟨0, _⟩ => show win0_4.index t (0 : Fin 2) * 1 + 1 * 0 = 0; rw [(idx_facts0 t).2.2.2.2.1.1]
    | ⟨1, _⟩ => show win0_4.index t (1 : Fin 2) * 128 + 1 * q.val = q.val; rw [(idx_facts0 t).2.2.2.2.1.2]; omega
  rw [he, lift2_ix2]

/-- The right-weight window's block is the whole right-weight matrix at every point. -/
theorem iblk0_5_apply (c : Dev nD) (t : Fin cfg0.N) (wr : Fin 128 → Fin 128 → ℝ) (hwr : V c main_v22 = lift2 wr)
    (k q : Fin 128) :
    (iblk0 (F := Ideal) V c 5 t : Vec Ideal S128x128 .f32) (ix2 k q) = ((wr k q : ℝ) : EReal) := by
  unfold iblk0
  rw [View.read_apply]
  show V c main_v22 (((cfg0.win 5).blk t).view.emb (ix2 k q)) = _
  rw [hwr]
  have he : ((cfg0.win 5).blk t).view.emb (ix2 k q) = ix2 k q := by
    funext a; apply Fin.ext
    match a with
    | ⟨0, _⟩ => show win0_5.index t (0 : Fin 2) * 128 + 1 * k.val = k.val; rw [(idx_facts0 t).2.2.2.2.2.1.1]; omega
    | ⟨1, _⟩ => show win0_5.index t (1 : Fin 2) * 128 + 1 * q.val = q.val; rw [(idx_facts0 t).2.2.2.2.2.1.2]; omega
  rw [he, lift2_ix2]

/-- The second layer's left-weight window's block is the whole matrix at every point. -/
theorem iblk0_6_apply (c : Dev nD) (t : Fin cfg0.N) (wl2 : Fin 128 → Fin 64 → ℝ) (hwl2 : V c main_v24 = lift2 wl2)
    (k : Fin 128) (j : Fin 64) :
    (iblk0 (F := Ideal) V c 6 t : Vec Ideal S128x64 .f32) (ix2 k j) = ((wl2 k j : ℝ) : EReal) := by
  unfold iblk0
  rw [View.read_apply]
  show V c main_v24 (((cfg0.win 6).blk t).view.emb (ix2 k j)) = _
  rw [hwl2]
  have he : ((cfg0.win 6).blk t).view.emb (ix2 k j) = ix2 k j := by
    funext a; apply Fin.ext
    match a with
    | ⟨0, _⟩ => show win0_6.index t (0 : Fin 2) * 128 + 1 * k.val = k.val; rw [(idx_facts0 t).2.2.2.2.2.2.1.1]; omega
    | ⟨1, _⟩ => show win0_6.index t (1 : Fin 2) * 64 + 1 * j.val = j.val; rw [(idx_facts0 t).2.2.2.2.2.2.1.2]; omega
  rw [he, lift2_ix2]

/-- The row's number. -/
theorem row0_val (t : Fin cfg0.N) (p : Fin 2000) : (row0 t p).val = t.val * 2000 + p.val := rfl

/-- What point `t` writes back to the hidden array is block `t` of the hidden rows. -/
theorem flushed0_7_eq (c : Dev nD)
    (A : Fin 100000 → Fin 128 → ℝ) (dg : Fin 100000 → ℝ) (X : Fin 100000 → Fin 128 → ℝ)
    (wl wr : Fin 128 → Fin 128 → ℝ) (b : Fin 128 → ℝ)
    (hA : V c main_v20 = lift2 A) (hd : V c main_v8 = lift2 (fun r (_ : Fin 1) => dg r))
    (hX : V c main_arg0 = lift2 X) (hwl : V c main_v21 = lift2 wl)
    (hb : V c main_v23 = lift2 (fun (_ : Fin 1) q => b q)) (hwr : V c main_v22 = lift2 wr)
    (t : Fin cfg0.N) :
    (dat0 (F := Ideal) V c).flushed 7 t
      = ((cfg0.win 7).blk t).view.read (Elt Ideal) (lift2 (hidBlock A dg X wl wr b)) := by
  show (cfg0.win 7).cut (grid0.coords t) ((dat0 V c).after 7 t) = _
  rw [after0_7]
  unfold out0_7
  rw [View.canon_unit_zero hz2]
  simp only [View.ld_unit_zero (S := S2000x128) hz2, View.ld_unit_zero (S := S2000x1) hz2,
    View.ld_unit_zero (S := S128x128) hz2, View.ld_unit_zero (S := S1x128) hz2]
  funext y
  obtain ⟨p, q, rfl⟩ : ∃ (p : Fin 2000) (q : Fin 128), y = ix2 p q := ⟨y 0, y 1, eq_ix2 y⟩
  rw [View.read_apply]
  show k0_pay1 (F := Ideal) (iblk0 V c 0 t) (iblk0 V c 1 t) (iblk0 V c 2 t) (iblk0 V c 3 t) (iblk0 V c 5 t)
      (iblk0 V c 4 t) (ix2 p q) = lift2 (hidBlock A dg X wl wr b) (((cfg0.win 7).blk t).view.emb (ix2 p q))
  have he : ((cfg0.win 7).blk t).view.emb (ix2 p q) = ix2 (row0 t p) q := by
    funext a; apply Fin.ext
    match a with
    | ⟨0, _⟩ => show win0_7.index t (0 : Fin 2) * 2000 + 1 * p.val = t.val * 2000 + p.val
                rw [(idx_facts0 t).2.2.2.2.2.2.2.1.1]; omega
    | ⟨1, _⟩ => show win0_7.index t (1 : Fin 2) * 128 + 1 * q.val = q.val
                rw [(idx_facts0 t).2.2.2.2.2.2.2.1.2]; omega
  rw [he, lift2_ix2]
  refine (pay1_apply (iblk0 V c 0 t) (iblk0 V c 1 t) (iblk0 V c 2 t) (iblk0 V c 3 t) (iblk0 V c 5 t) (iblk0 V c 4 t)
    (fun p k => A (row0 t p) k) (fun p => dg (row0 t p)) (fun p k => X (row0 t p) k) wl wr b
    ?_ ?_ ?_ ?_ ?_ ?_ p q).trans ?_
  · exact fun p k => iblk0_0_apply V c t A hA p k (row0 t p) rfl
  · exact fun p => iblk0_1_apply V c t dg hd p (row0 t p) rfl
  · exact fun p k => iblk0_2_apply V c t X hX p k (row0 t p) rfl
  · exact fun k q => iblk0_3_apply V c t wl hwl k q
  · exact fun k q => iblk0_5_apply V c t wr hwr k q
  · exact fun q => iblk0_4_apply V c t b hb q
  · rfl

/-- An index of the hidden array lies in point `t`'s block iff each coordinate is in the block's range. -/
theorem mem_blk0_7 (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v25_0).slice (win0_7.rect t)).set ↔ _
  rw [View.set_slice_whole, Rect.mem_set_unit]
  exact Iff.rfl

/-- Row `r` of the hidden array is covered by point `r / 2000`. -/
theorem cover0_7_arr (i : S100000x128.Idx) :
    ∃ t : Fin cfg0.N, (cfg0.win 7).flush t = true ∧ i ∈ ((cfg0.win 7).blk t).view.set := by
  have hN : cfg0.N = 50 := N_0
  have hi0 : (i 0).val < 100000 := (i 0).isLt
  have hi1 : (i 1).val < 128 := (i 1).isLt
  refine ⟨⟨(i 0).val / 2000, by omega⟩, flush0_7 _, ?_⟩
  rw [mem_blk0_7]
  intro a
  match a with
  | ⟨0, _⟩ =>
    show win0_7.index _ (0 : Fin 2) * 2000 ≤ (i 0).val ∧ (i 0).val < win0_7.index _ (0 : Fin 2) * 2000 + 2000
    rw [(idx_facts0 _).2.2.2.2.2.2.2.1.1]
    show (i 0).val / 2000 * 2000 ≤ (i 0).val ∧ (i 0).val < (i 0).val / 2000 * 2000 + 2000
    omega
  | ⟨1, _⟩ =>
    show win0_7.index _ (1 : Fin 2) * 128 ≤ (i 1).val ∧ (i 1).val < win0_7.index _ (1 : Fin 2) * 128 + 128
    rw [(idx_facts0 _).2.2.2.2.2.2.2.1.2]
    omega

/-- The 50 blocks tile the hidden array, so it ends holding the hidden rows. -/
theorem arr0_7 (c : Dev nD)
    (A : Fin 100000 → Fin 128 → ℝ) (dg : Fin 100000 → ℝ) (X : Fin 100000 → Fin 128 → ℝ)
    (wl wr : Fin 128 → Fin 128 → ℝ) (b : Fin 128 → ℝ)
    (hA : V c main_v20 = lift2 A) (hd : V c main_v8 = lift2 (fun r (_ : Fin 1) => dg r))
    (hX : V c main_arg0 = lift2 X) (hwl : V c main_v21 = lift2 wl)
    (hb : V c main_v23 = lift2 (fun (_ : Fin 1) q => b q)) (hwr : V c main_v22 = lift2 wr) :
    (dat0 (F := Ideal) V c).arrAt 7 cfg0.N = lift2 (hidBlock A dg X wl wr b) :=
  (dat0 (F := Ideal) V c).arrAt_eq_of_cover 7 (lift2 (hidBlock A dg X wl wr b))
    (fun t _ => flushed0_7_eq V c A dg X wl wr b hA hd hX hwl hb hwr t) cover0_7_arr

/-- What point `t` writes back to the second output is block `t` of the hidden rows times the second layer's
    left weights. -/
theorem flushed0_8_eq (c : Dev nD)
    (A : Fin 100000 → Fin 128 → ℝ) (dg : Fin 100000 → ℝ) (X : Fin 100000 → Fin 128 → ℝ)
    (wl wr : Fin 128 → Fin 128 → ℝ) (b : Fin 128 → ℝ) (wl2 : Fin 128 → Fin 64 → ℝ)
    (hA : V c main_v20 = lift2 A) (hd : V c main_v8 = lift2 (fun r (_ : Fin 1) => dg r))
    (hX : V c main_arg0 = lift2 X) (hwl : V c main_v21 = lift2 wl)
    (hb : V c main_v23 = lift2 (fun (_ : Fin 1) q => b q)) (hwr : V c main_v22 = lift2 wr)
    (hwl2 : V c main_v24 = lift2 wl2) (t : Fin cfg0.N) :
    (dat0 (F := Ideal) V c).flushed 8 t
      = ((cfg0.win 8).blk t).view.read (Elt Ideal)
          (lift2 (fun r j => ∑ k, hidBlock A dg X wl wr b r k * wl2 k j)) := by
  show (cfg0.win 8).cut (grid0.coords t) ((dat0 V c).after 8 t) = _
  rw [after0_8]
  unfold out0_8
  rw [View.canon_unit_zero hz2]
  simp only [View.ld_unit_zero (S := S2000x128) hz2, View.ld_unit_zero (S := S2000x1) hz2,
    View.ld_unit_zero (S := S128x128) hz2, View.ld_unit_zero (S := S1x128) hz2,
    View.ld_unit_zero (S := S128x64) hz2]
  funext y
  obtain ⟨p, j, rfl⟩ : ∃ (p : Fin 2000) (j : Fin 64), y = ix2 p j := ⟨y 0, y 1, eq_ix2 y⟩
  rw [View.read_apply]
  show k0_pay2 (F := Ideal) (iblk0 V c 0 t) (iblk0 V c 1 t) (iblk0 V c 2 t) (iblk0 V c 3 t) (iblk0 V c 5 t)
      (iblk0 V c 4 t) (iblk0 V c 6 t) (ix2 p j)
    = lift2 (fun r j => ∑ k, hidBlock A dg X wl wr b r k * wl2 k j) (((cfg0.win 8).blk t).view.emb (ix2 p j))
  have he : ((cfg0.win 8).blk t).view.emb (ix2 p j) = ix2 (row0 t p) j := by
    funext a; apply Fin.ext
    match a with
    | ⟨0, _⟩ => show win0_8.index t (0 : Fin 2) * 2000 + 1 * p.val = t.val * 2000 + p.val
                rw [(idx_facts0 t).2.2.2.2.2.2.2.2.1]; omega
    | ⟨1, _⟩ => show win0_8.index t (1 : Fin 2) * 64 + 1 * j.val = j.val
                rw [(idx_facts0 t).2.2.2.2.2.2.2.2.2]; omega
  rw [he, lift2_ix2]
  refine (pay2_apply (iblk0 V c 0 t) (iblk0 V c 1 t) (iblk0 V c 2 t) (iblk0 V c 3 t) (iblk0 V c 5 t) (iblk0 V c 4 t)
    (iblk0 V c 6 t)
    (fun p k => A (row0 t p) k) (fun p => dg (row0 t p)) (fun p k => X (row0 t p) k) wl wr b wl2
    ?_ ?_ ?_ ?_ ?_ ?_ ?_ p j).trans ?_
  · exact fun p k => iblk0_0_apply V c t A hA p k (row0 t p) rfl
  · exact fun p => iblk0_1_apply V c t dg hd p (row0 t p) rfl
  · exact fun p k => iblk0_2_apply V c t X hX p k (row0 t p) rfl
  · exact fun k q => iblk0_3_apply V c t wl hwl k q
  · exact fun k q => iblk0_5_apply V c t wr hwr k q
  · exact fun q => iblk0_4_apply V c t b hb q
  · exact fun k j => iblk0_6_apply V c t wl2 hwl2 k j
  · rfl

/-- An index of the second output lies in point `t`'s block iff each coordinate is in the block's range. -/
theorem mem_blk0_8 (t : Fin cfg0.N) (i : S100000x64.Idx) :
    i ∈ ((cfg0.win 8).blk t).view.set ↔ ∀ a : Fin 2, win0_8.index t a * S2000x64.size a ≤ (i a).val
      ∧ (i a).val < win0_8.index t a * S2000x64.size a + S2000x64.size a := by
  show i ∈ ((View.whole main_v25_1).slice (win0_8.rect t)).set ↔ _
  rw [View.set_slice_whole, Rect.mem_set_unit]
  exact Iff.rfl

/-- Row `r` of the second output is covered by point `r / 2000`. -/
theorem cover0_8_arr (i : S100000x64.Idx) :
    ∃ t : Fin cfg0.N, (cfg0.win 8).flush t = true ∧ i ∈ ((cfg0.win 8).blk t).view.set := by
  have hN : cfg0.N = 50 := N_0
  have hi0 : (i 0).val < 100000 := (i 0).isLt
  have hi1 : (i 1).val < 64 := (i 1).isLt
  refine ⟨⟨(i 0).val / 2000, by omega⟩, flush0_8 _, ?_⟩
  rw [mem_blk0_8]
  intro a
  match a with
  | ⟨0, _⟩ =>
    show win0_8.index _ (0 : Fin 2) * 2000 ≤ (i 0).val ∧ (i 0).val < win0_8.index _ (0 : Fin 2) * 2000 + 2000
    rw [(idx_facts0 _).2.2.2.2.2.2.2.2.1]
    show (i 0).val / 2000 * 2000 ≤ (i 0).val ∧ (i 0).val < (i 0).val / 2000 * 2000 + 2000
    omega
  | ⟨1, _⟩ =>
    show win0_8.index _ (1 : Fin 2) * 64 ≤ (i 1).val ∧ (i 1).val < win0_8.index _ (1 : Fin 2) * 64 + 64
    rw [(idx_facts0 _).2.2.2.2.2.2.2.2.2]
    omega

/-- The 50 blocks tile the second output, so it ends holding the hidden rows times the second layer's left weights. -/
theorem arr0_8 (c : Dev nD)
    (A : Fin 100000 → Fin 128 → ℝ) (dg : Fin 100000 → ℝ) (X : Fin 100000 → Fin 128 → ℝ)
    (wl wr : Fin 128 → Fin 128 → ℝ) (b : Fin 128 → ℝ) (wl2 : Fin 128 → Fin 64 → ℝ)
    (hA : V c main_v20 = lift2 A) (hd : V c main_v8 = lift2 (fun r (_ : Fin 1) => dg r))
    (hX : V c main_arg0 = lift2 X) (hwl : V c main_v21 = lift2 wl)
    (hb : V c main_v23 = lift2 (fun (_ : Fin 1) q => b q)) (hwr : V c main_v22 = lift2 wr)
    (hwl2 : V c main_v24 = lift2 wl2) :
    (dat0 (F := Ideal) V c).arrAt 8 cfg0.N = lift2 (fun r j => ∑ k, hidBlock A dg X wl wr b r k * wl2 k j) :=
  (dat0 (F := Ideal) V c).arrAt_eq_of_cover 8 (lift2 (fun r j => ∑ k, hidBlock A dg X wl wr b r k * wl2 k j))
    (fun t _ => flushed0_8_eq V c A dg X wl wr b wl2 hA hd hX hwl hb hwr hwl2 t) cover0_8_arr

/-! ## The second pipeline -/

/-- The second pipeline's index maps over its 20 points: the row-blocked windows sit at block `(t, 0)`, the bias
    and weight windows at block `(0, 0)`. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- Row `p` of block `t` of a 100000-row array cut in blocks of 5000 rows. -/
def row1 (t : Fin cfg1.N) (p : Fin 5000) : Fin 100000 :=
  ⟨t.val * 5000 + p.val, by have hN : cfg1.N = 20 := N_1; have := t.isLt; have := p.isLt; omega⟩

/-- Block `t` of the second aggregate window, at row `p`, is row `t * 5000 + p` of the second aggregate. -/
theorem iblk1_0_apply (c : Dev nD) (t : Fin cfg1.N) (A2 : Fin 100000 → Fin 64 → ℝ) (hA : V c main_v37 = lift2 A2)
    (p : Fin 5000) (j : Fin 64) (r : Fin 100000) (hr : r.val = t.val * 5000 + p.val) :
    (iblk1 (F := Ideal) V c 0 t : Vec Ideal S5000x64 .f32) (ix2 p j) = ((A2 r j : ℝ) : EReal) := by
  unfold iblk1
  rw [View.read_apply]
  show V c main_v37 (((cfg1.win 0).blk t).view.emb (ix2 p j)) = _
  rw [hA]
  have he : ((cfg1.win 0).blk t).view.emb (ix2 p j) = ix2 r j := by
    funext a; apply Fin.ext
    match a with
    | ⟨0, _⟩ => show win1_0.index t (0 : Fin 2) * 5000 + 1 * p.val = r.val; rw [(idx_facts1 t).1.1, hr]; omega
    | ⟨1, _⟩ => show win1_0.index t (1 : Fin 2) * 64 + 1 * j.val = j.val; rw [(idx_facts1 t).1.2]; omega
  rw [he, lift2_ix2]

/-- Block `t` of the degree window, at row `p`, is the degree of row `t * 5000 + p`. -/
theorem iblk1_1_apply (c : Dev nD) (t : Fin cfg1.N) (dg : Fin 100000 → ℝ)
    (hd : V c main_v8 = lift2 (fun r (_ : Fin 1) => dg r))
    (p : Fin 5000) (r : Fin 100000) (hr : r.val = t.val * 5000 + p.val) :
    (iblk1 (F := Ideal) V c 1 t : Vec Ideal S5000x1 .f32) (ix2 p 0) = ((dg r : ℝ) : EReal) := by
  unfold iblk1
  rw [View.read_apply]
  show V c main_v8 (((cfg1.win 1).blk t).view.emb (ix2 p 0)) = _
  rw [hd]
  have he : ((cfg1.win 1).blk t).view.emb (ix2 p 0) = ix2 r 0 := by
    funext a; apply Fin.ext
    match a with
    | ⟨0, _⟩ => show win1_1.index t (0 : Fin 2) * 5000 + 1 * p.val = r.val; rw [(idx_facts1 t).2.1.1, hr]; omega
    | ⟨1, _⟩ => show win1_1.index t (1 : Fin 2) * 1 + 1 * 0 = 0; rw [(idx_facts1 t).2.1.2]
  rw [he, lift2_ix2]

/-- Block `t` of the hidden window, at row `p`, is row `t * 5000 + p` of the hidden array. -/
theorem iblk1_2_apply (c : Dev nD) (t : Fin cfg1.N) (H : Fin 100000 → Fin 128 → ℝ) (hH : V c main_v25_0 = lift2 H)
    (p : Fin 5000) (k : Fin 128) (r : Fin 100000) (hr : r.val = t.val * 5000 + p.val) :
    (iblk1 (F := Ideal) V c 2 t : Vec Ideal S5000x128 .f32) (ix2 p k) = ((H r k : ℝ) : EReal) := by
  unfold iblk1
  rw [View.read_apply]
  show V c main_v25_0 (((cfg1.win 2).blk t).view.emb (ix2 p k)) = _
  rw [hH]
  have he : ((cfg1.win 2).blk t).view.emb (ix2 p k) = ix2 r k := by
    funext a; apply Fin.ext
    match a with
    | ⟨0, _⟩ => show win1_2.index t (0 : Fin 2) * 5000 + 1 * p.val = r.val; rw [(idx_facts1 t).2.2.1.1, hr]; omega
    | ⟨1, _⟩ => show win1_2.index t (1 : Fin 2) * 128 + 1 * k.val = k.val; rw [(idx_facts1 t).2.2.1.2]; omega
  rw [he, lift2_ix2]

/-- The second bias window's block is the whole bias row at every point. -/
theorem iblk1_3_apply (c : Dev nD) (t : Fin cfg1.N) (b2 : Fin 64 → ℝ)
    (hb : V c main_v39 = lift2 (fun (_ : Fin 1) j => b2 j)) (j : Fin 64) :
    (iblk1 (F := Ideal) V c 3 t : Vec Ideal S1x64 .f32) (ix2 0 j) = ((b2 j : ℝ) : EReal) := by
  unfold iblk1
  rw [View.read_apply]
  show V c main_v39 (((cfg1.win 3).blk t).view.emb (ix2 0 j)) = _
  rw [hb]
  have he : ((cfg1.win 3).blk t).view.emb (ix2 0 j) = ix2 0 j := by
    funext a; apply Fin.ext
    match a with
    | ⟨0, _⟩ => show win1_3.index t (0 : Fin 2) * 1 + 1 * 0 = 0; rw [(idx_facts1 t).2.2.2.1.1]
    | ⟨1, _⟩ => show win1_3.index t (1 : Fin 2) * 64 + 1 * j.val = j.val; rw [(idx_facts1 t).2.2.2.1.2]; omega
  rw [he, lift2_ix2]

/-- The second layer's right-weight window's block is the whole matrix at every point. -/
theorem iblk1_4_apply (c : Dev nD) (t : Fin cfg1.N) (wr2 : Fin 128 → Fin 64 → ℝ) (hwr : V c main_v38 = lift2 wr2)
    (k : Fin 128) (j : Fin 64) :
    (iblk1 (F := Ideal) V c 4 t : Vec Ideal S128x64 .f32) (ix2 k j) = ((wr2 k j : ℝ) : EReal) := by
  unfold iblk1
  rw [View.read_apply]
  show V c main_v38 (((cfg1.win 4).blk t).view.emb (ix2 k j)) = _
  rw [hwr]
  have he : ((cfg1.win 4).blk t).view.emb (ix2 k j) = ix2 k j := by
    funext a; apply Fin.ext
    match a with
    | ⟨0, _⟩ => show win1_4.index t (0 : Fin 2) * 128 + 1 * k.val = k.val; rw [(idx_facts1 t).2.2.2.2.1.1]; omega
    | ⟨1, _⟩ => show win1_4.index t (1 : Fin 2) * 64 + 1 * j.val = j.val; rw [(idx_facts1 t).2.2.2.2.1.2]; omega
  rw [he, lift2_ix2]

/-- What point `t` writes back to the output is block `t` of the output rows. -/
theorem flushed1_5_eq (c : Dev nD)
    (A2 : Fin 100000 → Fin 64 → ℝ) (dg : Fin 100000 → ℝ) (H : Fin 100000 → Fin 128 → ℝ)
    (b2 : Fin 64 → ℝ) (wr2 : Fin 128 → Fin 64 → ℝ)
    (hA : V c main_v37 = lift2 A2) (hd : V c main_v8 = lift2 (fun r (_ : Fin 1) => dg r))
    (hH : V c main_v25_0 = lift2 H) (hb : V c main_v39 = lift2 (fun (_ : Fin 1) j => b2 j))
    (hwr : V c main_v38 = lift2 wr2) (t : Fin cfg1.N) :
    (dat1 (F := Ideal) V c).flushed 5 t
      = ((cfg1.win 5).blk t).view.read (Elt Ideal)
          (lift2 (fun r j => A2 r j / max (dg r) 1 + b2 j + ∑ k, H r k * wr2 k j)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S5000x1) hz2,
    View.ld_unit_zero (S := S5000x128) hz2, View.ld_unit_zero (S := S128x64) hz2,
    View.ld_unit_zero (S := S1x64) hz2]
  funext y
  obtain ⟨p, j, rfl⟩ : ∃ (p : Fin 5000) (j : Fin 64), y = ix2 p j := ⟨y 0, y 1, eq_ix2 y⟩
  rw [View.read_apply]
  show k1_pay1 (F := Ideal) (iblk1 V c 0 t) (iblk1 V c 1 t) (iblk1 V c 2 t) (iblk1 V c 4 t) (iblk1 V c 3 t) (ix2 p j)
    = lift2 (fun r j => A2 r j / max (dg r) 1 + b2 j + ∑ k, H r k * wr2 k j)
        (((cfg1.win 5).blk t).view.emb (ix2 p j))
  have he : ((cfg1.win 5).blk t).view.emb (ix2 p j) = ix2 (row1 t p) j := by
    funext a; apply Fin.ext
    match a with
    | ⟨0, _⟩ => show win1_5.index t (0 : Fin 2) * 5000 + 1 * p.val = t.val * 5000 + p.val
                rw [(idx_facts1 t).2.2.2.2.2.1]; omega
    | ⟨1, _⟩ => show win1_5.index t (1 : Fin 2) * 64 + 1 * j.val = j.val
                rw [(idx_facts1 t).2.2.2.2.2.2]; omega
  rw [he, lift2_ix2]
  refine (pay_out_apply (iblk1 V c 0 t) (iblk1 V c 1 t) (iblk1 V c 2 t) (iblk1 V c 4 t) (iblk1 V c 3 t)
    (fun p j => A2 (row1 t p) j) (fun p => dg (row1 t p)) (fun p k => H (row1 t p) k) wr2 b2
    ?_ ?_ ?_ ?_ ?_ p j).trans ?_
  · exact fun p j => iblk1_0_apply V c t A2 hA p j (row1 t p) rfl
  · exact fun p => iblk1_1_apply V c t dg hd p (row1 t p) rfl
  · exact fun p k => iblk1_2_apply V c t H hH p k (row1 t p) rfl
  · exact fun k j => iblk1_4_apply V c t wr2 hwr k j
  · exact fun j => iblk1_3_apply V c t b2 hb j
  · rfl

/-- An index of the output lies in point `t`'s block iff each coordinate is in the block's range. -/
theorem mem_blk1_5 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v40).slice (win1_5.rect t)).set ↔ _
  rw [View.set_slice_whole, Rect.mem_set_unit]
  exact Iff.rfl

/-- Row `r` of the output is covered by point `r / 5000`. -/
theorem cover1_5_arr (i : S100000x64.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  refine ⟨⟨(i 0).val / 5000, by omega⟩, flush1_5 _, ?_⟩
  rw [mem_blk1_5]
  intro a
  match a with
  | ⟨0, _⟩ =>
    show win1_5.index _ (0 : Fin 2) * 5000 ≤ (i 0).val ∧ (i 0).val < win1_5.index _ (0 : Fin 2) * 5000 + 5000
    rw [(idx_facts1 _).2.2.2.2.2.1]
    show (i 0).val / 5000 * 5000 ≤ (i 0).val ∧ (i 0).val < (i 0).val / 5000 * 5000 + 5000
    omega
  | ⟨1, _⟩ =>
    show win1_5.index _ (1 : Fin 2) * 64 ≤ (i 1).val ∧ (i 1).val < win1_5.index _ (1 : Fin 2) * 64 + 64
    rw [(idx_facts1 _).2.2.2.2.2.2]
    omega

/-- The 20 blocks tile the output, so it ends holding the output rows. -/
theorem arr1_5 (c : Dev nD)
    (A2 : Fin 100000 → Fin 64 → ℝ) (dg : Fin 100000 → ℝ) (H : Fin 100000 → Fin 128 → ℝ)
    (b2 : Fin 64 → ℝ) (wr2 : Fin 128 → Fin 64 → ℝ)
    (hA : V c main_v37 = lift2 A2) (hd : V c main_v8 = lift2 (fun r (_ : Fin 1) => dg r))
    (hH : V c main_v25_0 = lift2 H) (hb : V c main_v39 = lift2 (fun (_ : Fin 1) j => b2 j))
    (hwr : V c main_v38 = lift2 wr2) :
    (dat1 (F := Ideal) V c).arrAt 5 cfg1.N
      = lift2 (fun r j => A2 r j / max (dg r) 1 + b2 j + ∑ k, H r k * wr2 k j) :=
  (dat1 (F := Ideal) V c).arrAt_eq_of_cover 5 (lift2 (fun r j => A2 r j / max (dg r) 1 + b2 j + ∑ k, H r k * wr2 k j))
    (fun t _ => flushed1_5_eq V c A2 dg H b2 wr2 hA hd hH hb hwr t) cover1_5_arr

end Blocks

end Regions

variable [Cert.KernelIdeal.Facts]

variable (V : (c : Dev nD) → (b : Ref sig .tc) → Buf (Elt Ideal) ((c : Thread nD τ).loc b))

/-- THE FIRST PIPELINE'S OUTPUTS: the hidden array and its product with the second layer's left weights. -/
theorem region0_out (c : Dev nD)
    (A : Fin 100000 → Fin 128 → ℝ) (dg : Fin 100000 → ℝ) (X : Fin 100000 → Fin 128 → ℝ)
    (wl wr : Fin 128 → Fin 128 → ℝ) (b : Fin 128 → ℝ) (wl2 : Fin 128 → Fin 64 → ℝ)
    (hA : V c main_v20 = lift2 A) (hd : V c main_v8 = lift2 (fun r (_ : Fin 1) => dg r))
    (hX : V c main_arg0 = lift2 X) (hwl : V c main_v21 = lift2 wl)
    (hb : V c main_v23 = lift2 (fun (_ : Fin 1) q => b q)) (hwr : V c main_v22 = lift2 wr)
    (hwl2 : V c main_v24 = lift2 wl2) :
    (dat0 (F := Ideal) V c).arrAt 7 cfg0.N = lift2 (hidBlock A dg X wl wr b)
    ∧ (dat0 (F := Ideal) V c).arrAt 8 cfg0.N = lift2 (fun r j => ∑ k, hidBlock A dg X wl wr b r k * wl2 k j) :=
  ⟨Regions.arr0_7 V c A dg X wl wr b hA hd hX hwl hb hwr,
    Regions.arr0_8 V c A dg X wl wr b wl2 hA hd hX hwl hb hwr hwl2⟩

/-- THE SECOND PIPELINE'S OUTPUT. -/
theorem region1_out (c : Dev nD)
    (A2 : Fin 100000 → Fin 64 → ℝ) (dg : Fin 100000 → ℝ) (H : Fin 100000 → Fin 128 → ℝ)
    (b2 : Fin 64 → ℝ) (wr2 : Fin 128 → Fin 64 → ℝ)
    (hA : V c main_v37 = lift2 A2) (hd : V c main_v8 = lift2 (fun r (_ : Fin 1) => dg r))
    (hH : V c main_v25_0 = lift2 H) (hb : V c main_v39 = lift2 (fun (_ : Fin 1) j => b2 j))
    (hwr : V c main_v38 = lift2 wr2) :
    (dat1 (F := Ideal) V c).arrAt 5 cfg1.N
      = lift2 (fun r j => A2 r j / max (dg r) 1 + b2 j + ∑ k, H r k * wr2 k j) :=
  Regions.arr1_5 V c A2 dg H b2 wr2 hA hd hH hb hwr

end Cert.KernelValue

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.SageSpec.lean ====
/-
  Two-layer mean-aggregating graph convolution over the reals, and the law that joins its two arrangements.

  An edge `e` reads the source row `s e` and is summed into the segment `seg r` of its target row `r`; `D r`
  is the divisor of row `r`. The mean aggregate of an array `v` at `(r, k)` is `(∑ e ∈ seg r, v (s e) k) / D r`.
  One layer is `mean(v) · Wlᵀ + bl + v · Wrᵀ`; the hidden layer is clipped below at zero.

  The second layer can be arranged in two ways. Aggregating the hidden rows and then multiplying by `Wl2ᵀ`:
  `∑ k, mean(hid) (r, k) · Wl2 (j, k)`. Or multiplying every hidden row by `Wl2ᵀ` first and aggregating the
  narrower products: `mean(hid · Wl2ᵀ) (r, j)`. They agree because a finite sum commutes with the matrix
  product and with the division by `D r` (over the reals; no condition on `D r` is needed, since division by
  zero is multiplication by zero on both sides).
-/
import Mathlib.Data.Real.Basic
import Mathlib.Algebra.BigOperators.Field
import Mathlib.Algebra.BigOperators.Ring.Finset
import Mathlib.Algebra.BigOperators.Group.Finset.Sigma
import Mathlib.Algebra.Order.Field.Basic

noncomputable section

namespace Cert.SageSpec

open Finset

variable (s : Fin 1600000 → Fin 100000) (seg : Fin 100000 → Finset (Fin 1600000)) (D : Fin 100000 → ℝ)
variable (x : Fin 100000 → Fin 128 → ℝ) (Wl1 : Fin 128 → Fin 128 → ℝ) (bl1 : Fin 128 → ℝ)
  (Wr1 : Fin 128 → Fin 128 → ℝ) (Wl2 : Fin 64 → Fin 128 → ℝ) (bl2 : Fin 64 → ℝ) (Wr2 : Fin 64 → Fin 128 → ℝ)

/-- The mean aggregate of `v` at `(r, k)`: the sum of the source rows of row `r`'s edges over its divisor. -/
def mean {C : Nat} (v : Fin 100000 → Fin C → ℝ) (r : Fin 100000) (k : Fin C) : ℝ :=
  (∑ e ∈ seg r, v (s e) k) / D r

/-- The hidden layer at `(r, k)`. -/
def hid (r : Fin 100000) (k : Fin 128) : ℝ :=
  max (∑ q, mean s seg D x r q * Wl1 k q + bl1 k + ∑ q, x r q * Wr1 k q) 0

/-- The second layer, aggregating the hidden rows first. -/
def outAggFirst (r : Fin 100000) (j : Fin 64) : ℝ :=
  ∑ k, mean s seg D (hid s seg D x Wl1 bl1 Wr1) r k * Wl2 j k + bl2 j
    + ∑ k, hid s seg D x Wl1 bl1 Wr1 r k * Wr2 j k

/-- The hidden rows multiplied by `Wl2ᵀ`. -/
def proj (r : Fin 100000) (j : Fin 64) : ℝ := ∑ k, hid s seg D x Wl1 bl1 Wr1 r k * Wl2 j k

/-- The second layer, multiplying by `Wl2ᵀ` first and aggregating the products. -/
def outProjFirst (r : Fin 100000) (j : Fin 64) : ℝ :=
  mean s seg D (proj s seg D x Wl1 bl1 Wr1 Wl2) r j + bl2 j + ∑ k, hid s seg D x Wl1 bl1 Wr1 r k * Wr2 j k

/-- Aggregation commutes with a matrix product on the right. -/
theorem mean_proj {K C : Nat} (v : Fin 100000 → Fin K → ℝ) (W : Fin C → Fin K → ℝ) (r : Fin 100000) (j : Fin C) :
    mean s seg D (fun r' j' => ∑ k, v r' k * W j' k) r j = ∑ k, mean s seg D v r k * W j k := by
  unfold mean
  rw [Finset.sum_comm, Finset.sum_div]
  refine Finset.sum_congr rfl fun k _ => ?_
  rw [← Finset.sum_mul, div_mul_eq_mul_div]

/-- The two arrangements of the second layer agree. -/
theorem outProjFirst_eq_outAggFirst :
    outProjFirst s seg D x Wl1 bl1 Wr1 Wl2 bl2 Wr2 = outAggFirst s seg D x Wl1 bl1 Wr1 Wl2 bl2 Wr2 := by
  funext r j
  unfold outProjFirst outAggFirst
  rw [show proj s seg D x Wl1 bl1 Wr1 Wl2 = fun r' j' => ∑ k, hid s seg D x Wl1 bl1 Wr1 r' k * Wl2 j' k from rfl,
    mean_proj]

end Cert.SageSpec

end
-- ==== Proof.SageIndex.lean ====
/-
  The edge data of the graph convolution read off two integer index columns: the source row of an edge
  (its source index read signed and clamped into the node range), the segment of edges that target a
  node (target index read signed, not clamped), and the divisor of a node (the number of its edges, at
  least one).
-/
import proofs.«144126_j10694468567472_2_alg».proof.Proof.LibSegmentRows
import proofs.«144126_j10694468567472_2_alg».proof.Proof.SageSpec

noncomputable section

open Idealize.ShloMosaic Cert.SegmentRows

namespace Cert.SageIndex

/-- An index column: one 32-bit integer per edge. -/
abbrev EdgeCol := IVec (⟨2, ![1600000, 1]⟩ : Shape) 32

/-- The source row of edge `e`. -/
def srcRow (gi : EdgeCol) : Fin 1600000 → Fin 100000 := takeRow (N := 100000) (by decide) gi

/-- The edges that target node `r`. -/
def dstSeg (si : EdgeCol) : Fin 100000 → Finset (Fin 1600000) := fun r => segment si r

/-- The divisor of node `r`: the number of edges that target it, or one if there is none. -/
def divisor (si : EdgeCol) (r : Fin 100000) : ℝ := max ((dstSeg si r).card : ℝ) 1

theorem divisor_ne_zero (si : EdgeCol) (r : Fin 100000) : divisor si r ≠ 0 :=
  ne_of_gt (lt_of_lt_of_le one_pos (le_max_right _ _))

end Cert.SageIndex

end
-- ==== Proof.Host0.lean ====
/-
  The arrays the first pipeline is entered with, as arrays of real numbers.

  Before the first pipeline the host operations compute, from the edge array, the two index columns (the source
  column normalised by adding the node count to negative entries, and the target column), the degree of every node
  (ones summed into segments), the aggregate of the feature rows (rows taken at the source column and summed into
  the target column's segments), and re-lay the weights (transposes) and the bias (a row). With real features and
  weights each of these is an array of reals: a segment sum of reals, a count, a transposed matrix, a row.
-/
import proofs.«144126_j10694468567472_2_alg».proof.Proof.Gen.KernelIdeal.Frame
import proofs.«144126_j10694468567472_2_alg».proof.Proof.SageIndex
import proofs.«144126_j10694468567472_2_alg».proof.Proof.LibIdealReal
import proofs.«144126_j10694468567472_2_alg».proof.Proof.LibERealSums
import proofs.«144126_j10694468567472_2_alg».proof.Proof.LibRows
import Idealize.ShloMosaic.Lib.StableHlo.Run
import Idealize.ShloMosaic.Lib.IdealHost
import Idealize.ShloMosaic.Lib.Pipeline.Value

noncomputable section

open Idealize.ShloMosaic Idealize.ShloMosaic.ValueIdx Idealize.ShloMosaic.TcCoe Idealize.SL.Sem Idealize.ShloMosaic.StableHlo
open Cert.KernelIdeal Cert.KernelIdeal.Gen Cert.IdealReal Cert.SageIndex Cert.SegmentRows

namespace Cert.KernelValue

variable [Cert.KernelIdeal.Facts]

/-- The source column: entry `e` of the edge array's first row, with the node count added when negative. -/
def srcCol (x1 : IVec S2x1600000 32) : IVec S1600000x1 32 :=
  let v1 : IVec S1600000 32 := shapeCast _ (extractStridedSlice S1x1600000 ![0, 0] x1 slices_S2x1600000_S1x1600000_0_0) shapeCasts_S1x1600000_S1600000
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The target column: entry `e` of the edge array's second row. -/
def dstCol (x1 : IVec S2x1600000 32) : IVec S1600000x1 32 :=
  broadcastInDim S1600000x1 ![0] bcast_S1600000_S1600000x1_0
    (shapeCast _ (extractStridedSlice S1x1600000 ![1, 0] x1 slices_S2x1600000_S1x1600000_1_0) shapeCasts_S1x1600000_S1600000)

/-! ## Segment sums of real rows -/

/-- Summing the rows `u` of reals into the segments of the target column, from the zero array: at `(r, k)` the
    real sum over the edges that target `r`. -/
theorem segsum_apply {C : Nat} (wfs : ScatterDims.WF ⟨2, ![100000, C]⟩ ⟨2, ![1600000, 1]⟩ ⟨2, ![1600000, C]⟩ [1] [0] [0] 1)
    (z : (⟨2, ![100000, C]⟩ : Shape).Idx → EReal) (si : EdgeCol) (u : (⟨2, ![1600000, C]⟩ : Shape).Idx → EReal)
    (w' : Fin 1600000 → Fin C → ℝ) (hz : ∀ i, z i = 0) (hu : ∀ e k, u (ix2 e k) = ((w' e k : ℝ) : EReal))
    (r : Fin 100000) (k : Fin C) :
    Ideal.hostScatterAdd (rowScatterDims 100000 1600000 C wfs) z si u (ix2 r k)
      = ((∑ e ∈ dstSeg si r, w' e k : ℝ) : EReal) := by
  rw [scatterAdd_rows_apply, hz, zero_add]
  exact Cert.LibERealSums.sum_eq_coe _ _ _ fun e _ => hu e k

/-- The zero array: the zero pattern broadcast. -/
theorem zero_bcast {T : Shape} (h : (⟨0, ![]⟩ : Shape).BroadcastsInDim T ![]) (i : T.Idx) :
    broadcastInDim T ![] h (constant (F := Ideal) ⟨0, ![]⟩ .f32 0x00000000#32) i = 0 := by
  rw [broadcastInDim_scalar_apply, constant_apply, Ideal.ofBits_zero_f32]

/-- The array of ones: the pattern of one broadcast. -/
theorem one_bcast {T : Shape} (h : (⟨0, ![]⟩ : Shape).BroadcastsInDim T ![]) (i : T.Idx) :
    broadcastInDim T ![] h (constant (F := Ideal) ⟨0, ![]⟩ .f32 0x3F800000#32) i = ((1 : ℝ) : EReal) := by
  rw [broadcastInDim_scalar_apply, constant_apply, ofBits_one_f32, EReal.coe_one]

variable (m : (ℓ : Loc nD τ sig) → Buf (Elt Ideal) ℓ) (ρ : Dev nD → PrngReg) (c : Dev nD)

/-! ## The terms the host operations leave -/

theorem V1_src_term : V1 m ρ c main_v15 = srcCol (m ((c : Thread nD τ).loc main_arg1)) := by
  show StableHlo.after hostOps0 (W0 m ρ c) (Proc.devRef .tc main_v15) = _
  after_results
  rfl

theorem V1_agg_term : V1 m ρ c main_v20 = Host.scatterAdd scatter_S100000x128_S1600000x1_S1600000x128_1_0_0_1
    (broadcastInDim S100000x128 ![] bcast_S_S100000x128 (constant (F := Ideal) S_ .f32 0x00000000#32))
    (dstCol (m ((c : Thread nD τ).loc main_arg1)))
    (extf .f32 (Host.gather gather_S100000x128_S1600000x1_S1600000x128_1_0_n_n_0_1_1128
      (truncf .bf16 (m ((c : Thread nD τ).loc main_arg0)) bitsLt_bf16_f32) (srcCol (m ((c : Thread nD τ).loc main_arg1)))) bitsLt_bf16_f32) := by
  show StableHlo.after hostOps0 (W0 m ρ c) (Proc.devRef .tc main_v20) = _
  after_results_simp <;> rfl

theorem V1_deg_term : V1 m ρ c main_v8 = shapeCast S100000x1 (Host.scatterAdd scatter_S100000_S1600000x1_S1600000_n_0_0_1
    (broadcastInDim S100000 ![] bcast_S_S100000 (constant (F := Ideal) S_ .f32 0x00000000#32))
    (dstCol (m ((c : Thread nD τ).loc main_arg1)))
    (broadcastInDim S1600000 ![] bcast_S_S1600000 (constant (F := Ideal) S_ .f32 0x3F800000#32))) shapeCasts_S100000_S100000x1 := by
  show StableHlo.after hostOps0 (W0 m ρ c) (Proc.devRef .tc main_v8) = _
  after_results_simp <;> rfl

theorem V1_x_term : V1 m ρ c main_arg0 = m ((c : Thread nD τ).loc main_arg0) := by
  show StableHlo.after hostOps0 (W0 m ρ c) (Proc.devRef .tc main_arg0) = _
  after_results_simp <;> rfl

theorem V1_wl_term : V1 m ρ c main_v21 = transpose S128x128 [1, 0] (m ((c : Thread nD τ).loc main_arg2)) transposes_S128x128_S128x128_1_0 := by
  show StableHlo.after hostOps0 (W0 m ρ c) (Proc.devRef .tc main_v21) = _
  after_results_simp <;> rfl

theorem V1_wr_term : V1 m ρ c main_v22 = transpose S128x128 [1, 0] (m ((c : Thread nD τ).loc main_arg4)) transposes_S128x128_S128x128_1_0 := by
  show StableHlo.after hostOps0 (W0 m ρ c) (Proc.devRef .tc main_v22) = _
  after_results_simp <;> rfl

theorem V1_b_term : V1 m ρ c main_v23 = shapeCast S1x128 (m ((c : Thread nD τ).loc main_arg3)) shapeCasts_S128_S1x128 := by
  show StableHlo.after hostOps0 (W0 m ρ c) (Proc.devRef .tc main_v23) = _
  after_results_simp <;> rfl

theorem V1_wl2_term : V1 m ρ c main_v24 = transpose S128x64 [1, 0] (m ((c : Thread nD τ).loc main_arg5)) transposes_S64x128_S128x64_1_0 := by
  show StableHlo.after hostOps0 (W0 m ρ c) (Proc.devRef .tc main_v24) = _
  after_results_simp <;> rfl

end Cert.KernelValue

end
-- ==== Proof.Host0Values.lean ====
/-
  The arrays the first pipeline is entered with, read as arrays of real numbers: the aggregate of real feature rows
  is the array of real segment sums, the degree column the array of segment counts, a transposed real matrix the
  transposed array, a real vector recast as a row the row.
-/
import proofs.«144126_j10694468567472_2_alg».proof.Proof.Host0

noncomputable section

open Idealize.ShloMosaic Idealize.ShloMosaic.ValueIdx Idealize.ShloMosaic.TcCoe Idealize.SL.Sem Idealize.ShloMosaic.StableHlo
open Cert.KernelIdeal Cert.KernelIdeal.Gen Cert.IdealReal Cert.SageIndex Cert.SegmentRows

namespace Cert.KernelValue

variable [Cert.KernelIdeal.Facts]
variable (m : (ℓ : Loc nD τ sig) → Buf (Elt Ideal) ℓ) (ρ : Dev nD → PrngReg) (c : Dev nD)

namespace Host0Values

/-- The printed row-scatter dimension numbers are the row scatter's of the general lemma. -/
theorem rows_record_eq : scatter_S100000x128_S1600000x1_S1600000x128_1_0_0_1
    = rowScatterDims 100000 1600000 128 Facts₀.scatter_S100000x128_S1600000x1_S1600000x128_1_0_0_1_wf := rfl

/-- The printed row-gather dimension numbers are the row gather's of the general lemma. -/
theorem gather_record_eq : gather_S100000x128_S1600000x1_S1600000x128_1_0_n_n_0_1_1128
    = rowGatherDims 100000 1600000 128 Facts₀.gather_S100000x128_S1600000x1_S1600000x128_1_0_n_n_0_1_1128_wf := rfl

/-- The printed vector-scatter dimension numbers are the vector scatter's of the general lemma. -/
theorem vec_record_eq : scatter_S100000_S1600000x1_S1600000_n_0_0_1
    = vecScatterDims 100000 1600000 Facts₀.scatter_S100000_S1600000x1_S1600000_n_0_0_1_wf := rfl

/-- Over the extended reals the accumulating scatter is the exact one: the operand plus the sum of the updates that land. -/
theorem scatterAdd_exact {s si u : Shape} {w : Nat} (d : ScatterDims s si u) (x : FVec Ideal s .f32) (idx : IVec si w)
    (upd : FVec Ideal u .f32) : Host.scatterAdd d x idx upd = Ideal.hostScatterAdd d x idx upd := rfl

/-- Ones summed into the target column's segments, from zero: at `r` the number of edges that target `r`. -/
theorem count_entry (d : ScatterDims S100000 S1600000x1 S1600000)
    (wf : ScatterDims.WF S100000 S1600000x1 S1600000 [] [0] [0] 1) (hd : d = vecScatterDims 100000 1600000 wf)
    (x : FVec Ideal S100000 .f32) (si : EdgeCol) (upd : FVec Ideal S1600000 .f32)
    (hx : ∀ i, x i = 0) (hu : ∀ i, upd i = ((1 : ℝ) : EReal)) (r : Fin 100000) :
    Host.scatterAdd d x si upd (ix1 r) = (((dstSeg si r).card : ℝ) : EReal) := by
  subst hd
  unfold dstSeg
  rw [scatterAdd_exact, scatterAdd_vec_apply, hx, zero_add]
  refine (Cert.LibERealSums.sum_eq_coe _ _ (fun _ => (1 : ℝ)) fun e _ => hu _).trans ?_
  rw [Finset.sum_const, nsmul_eq_mul, mul_one]

/-- Rows of a real matrix, taken at the source column and summed into the target column's segments from zero: at
    `(r, k)` the real sum, over the edges that target `r`, of the matrix at the edge's source row. -/
theorem agg_entry (d : ScatterDims S100000x128 S1600000x1 S1600000x128)
    (wf : ScatterDims.WF S100000x128 S1600000x1 S1600000x128 [1] [0] [0] 1) (hd : d = rowScatterDims 100000 1600000 128 wf)
    (g : GatherDims S100000x128 S1600000x1 S1600000x128)
    (wfg : GatherDims.WF S100000x128 S1600000x1 S1600000x128 [1] [0] [] [0] [] 1 ![1, 128])
    (hg : g = rowGatherDims 100000 1600000 128 wfg)
    (z : FVec Ideal S100000x128 .f32) (si gi : EdgeCol) (xa : FVec Ideal S100000x128 .f32)
    (hb : FTy.bits .bf16 < FTy.bits .f32) (x' : Fin 100000 → Fin 128 → ℝ)
    (hz : ∀ i, z i = 0) (hx : xa = lift2 x') (r : Fin 100000) (k : Fin 128) :
    Host.scatterAdd d z si (extf .f32 (Host.gather g (truncf .bf16 xa hb) gi) hb) (ix2 r k)
      = ((∑ e ∈ dstSeg si r, x' (srcRow gi e) k : ℝ) : EReal) := by
  subst hd hg hx
  rw [scatterAdd_exact]
  refine segsum_apply wf z si _ (fun e k => x' (srcRow gi e) k) hz (fun e k => ?_) r k
  unfold srcRow
  rw [extf_apply, gather_rows_apply (N := 100000) (by decide), truncf_apply, lift2_ix2]

end Host0Values

/-- The aggregate array: at `(r, k)` the sum, over the edges that target `r`, of the feature at the edge's source row. -/
theorem V1_agg (x' : Fin 100000 → Fin 128 → ℝ) (hx : m ((c : Thread nD τ).loc main_arg0) = lift2 x') :
    V1 m ρ c main_v20 = lift2 (fun r k => ∑ e ∈ dstSeg (dstCol (m ((c : Thread nD τ).loc main_arg1))) r,
      x' (srcRow (srcCol (m ((c : Thread nD τ).loc main_arg1))) e) k) := by
  rw [V1_agg_term]
  refine eq_lift2 _ _ fun r k => ?_
  exact Host0Values.agg_entry _ _ Host0Values.rows_record_eq _ _ Host0Values.gather_record_eq _ _ _ _ _ x'
    (fun i => zero_bcast _ i) hx r k

/-- The degree column: at `(r, 0)` the number of edges that target `r`. -/
theorem V1_deg :
    V1 m ρ c main_v8 = lift2 (fun r (_ : Fin 1) => ((dstSeg (dstCol (m ((c : Thread nD τ).loc main_arg1))) r).card : ℝ)) := by
  rw [V1_deg_term]
  refine eq_lift2 _ _ fun r z => ?_
  obtain rfl : z = 0 := Subsingleton.elim _ _
  refine (Cert.Rows.cast_col _ _ r).trans ?_
  exact Host0Values.count_entry _ _ Host0Values.vec_record_eq _ _ _ (fun i => zero_bcast _ i) (fun i => one_bcast _ i) r

/-- The feature array is the argument's. -/
theorem V1_x (x' : Fin 100000 → Fin 128 → ℝ) (hx : m ((c : Thread nD τ).loc main_arg0) = lift2 x') :
    V1 m ρ c main_arg0 = lift2 x' := by
  rw [V1_x_term]; exact hx

/-- The first layer's left weights, transposed. -/
theorem V1_wl (W : Fin 128 → Fin 128 → ℝ) (h : m ((c : Thread nD τ).loc main_arg2) = lift2 W) :
    V1 m ρ c main_v21 = lift2 (fun k q => W q k) := by
  rw [V1_wl_term]
  refine eq_lift2 _ _ fun a b => ?_
  refine (transpose_apply (s := S128x128) (t := S128x128) [1, 0] _ transposes_S128x128_S128x128_1_0 (ix2 a b) (ix2 b a)
    (fun i => by match i with | ⟨0, _⟩ => rfl | ⟨1, _⟩ => rfl)).trans ?_
  rw [h, lift2_ix2]

/-- The first layer's right weights, transposed. -/
theorem V1_wr (W : Fin 128 → Fin 128 → ℝ) (h : m ((c : Thread nD τ).loc main_arg4) = lift2 W) :
    V1 m ρ c main_v22 = lift2 (fun k q => W q k) := by
  rw [V1_wr_term]
  refine eq_lift2 _ _ fun a b => ?_
  refine (transpose_apply (s := S128x128) (t := S128x128) [1, 0] _ transposes_S128x128_S128x128_1_0 (ix2 a b) (ix2 b a)
    (fun i => by match i with | ⟨0, _⟩ => rfl | ⟨1, _⟩ => rfl)).trans ?_
  rw [h, lift2_ix2]

/-- The first layer's bias as a row. -/
theorem V1_b (b : Fin 128 → ℝ) (h : ∀ q, m ((c : Thread nD τ).loc main_arg3) (ix1 q) = ((b q : ℝ) : EReal)) :
    V1 m ρ c main_v23 = lift2 (fun (_ : Fin 1) q => b q) := by
  rw [V1_b_term]
  refine eq_lift2 _ _ fun z q => ?_
  obtain rfl : z = 0 := Subsingleton.elim _ _
  refine (shapeCast_apply (s := S128) (t := S1x128) _ shapeCasts_S128_S1x128 (ix2 0 q) (ix1 q) (by
    rw [Shape.rowMajor_val_one, Shape.rowMajor_val_two]; show q.val = 0 * 128 + q.val; omega)).trans ?_
  exact h q

/-- The second layer's left weights, transposed. -/
theorem V1_wl2 (W : Fin 64 → Fin 128 → ℝ) (h : m ((c : Thread nD τ).loc main_arg5) = lift2 W) :
    V1 m ρ c main_v24 = lift2 (fun k j => W j k) := by
  rw [V1_wl2_term]
  refine eq_lift2 _ _ fun a b => ?_
  refine (transpose_apply (s := S64x128) (t := S128x64) [1, 0] _ transposes_S64x128_S128x64_1_0 (ix2 a b) (ix2 b a)
    (fun i => by match i with | ⟨0, _⟩ => rfl | ⟨1, _⟩ => rfl)).trans ?_
  rw [h, lift2_ix2]

end Cert.KernelValue

end
-- ==== Proof.Host1.lean ====
/-
  The arrays the second pipeline is entered with, in terms of what the first pipeline left.

  Between the pipelines the host operations take the rows of the first pipeline's second output (the hidden rows
  already multiplied by the second layer's left weights) at the source column and sum them into the target
  column's segments, transpose the second layer's right weights and recast its bias as a row. The degree column
  and the hidden array pass through untouched: the first pipeline only read the one and wrote the other.
-/
import proofs.«144126_j10694468567472_2_alg».proof.Proof.Host0

noncomputable section

open Idealize.ShloMosaic Idealize.ShloMosaic.ValueIdx Idealize.ShloMosaic.TcCoe Idealize.SL.Sem Idealize.ShloMosaic.StableHlo
open Cert.KernelIdeal Cert.KernelIdeal.Gen Cert.IdealReal Cert.SageIndex Cert.SegmentRows

namespace Cert.KernelValue

variable [Cert.KernelIdeal.Facts]
variable (m : (ℓ : Loc nD τ sig) → Buf (Elt Ideal) ℓ) (ρ : Dev nD → PrngReg) (c : Dev nD)

/-! ## What the first pipeline's exit contents hold at the buffers the host operations read -/

/-- The edge array's first row, flattened: computed before the first pipeline, not one of its arrays. -/
theorem W2_v1 : W2 m ρ c (Proc.devRef .tc main_v1)
    = shapeCast _ (extractStridedSlice S1x1600000 ![0, 0] (m ((c : Thread nD τ).loc main_arg1)) slices_S2x1600000_S1x1600000_0_0) shapeCasts_S1x1600000_S1600000 := by
  rw [W2_of_ne m ρ c main_v1 (by decide)]
  show StableHlo.after hostOps0 (W0 m ρ c) (Proc.devRef .tc main_v1) = _
  after_results_simp <;> rfl

/-- The edge array's second row, flattened. -/
theorem W2_v3 : W2 m ρ c (Proc.devRef .tc main_v3)
    = shapeCast _ (extractStridedSlice S1x1600000 ![1, 0] (m ((c : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results_simp <;> rfl

/-- The second layer's bias is still the argument's. -/
theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

/-- The second layer's right weights are still the argument's. -/
theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

/-- The degree column is an input of the first pipeline: it leaves it as it found it. -/
theorem W2_deg : W2 m ρ c (Proc.devRef .tc main_v8) = V1 m ρ c main_v8 :=
  (W2_arr m ρ c 1).trans (((dat0 (V1 m ρ) c).arrAt_in 1 rfl _).trans (A_eq0 (V1 m ρ) c 1))

/-- The hidden array is the first pipeline's first output. -/
theorem W2_h : W2 m ρ c (Proc.devRef .tc main_v25_0) = (dat0 (V1 m ρ) c).arrAt 7 cfg0.N := W2_arr m ρ c 7

/-- The projected hidden array is the first pipeline's second output. -/
theorem W2_hl : W2 m ρ c (Proc.devRef .tc main_v25_1) = (dat0 (V1 m ρ) c).arrAt 8 cfg0.N := W2_arr m ρ c 8

/-! ## The terms the host operations leave -/

theorem V3_agg_term : V3 m ρ c main_v37 = Host.scatterAdd scatter_S100000x64_S1600000x1_S1600000x64_1_0_0_1
    (broadcastInDim S100000x64 ![] bcast_S_S100000x64 (constant (F := Ideal) S_ .f32 0x00000000#32))
    (dstCol (m ((c : Thread nD τ).loc main_arg1)))
    (extf .f32 (Host.gather gather_S100000x64_S1600000x1_S1600000x64_1_0_n_n_0_1_164
      (truncf .bf16 (W2 m ρ c (Proc.devRef .tc main_v25_1)) bitsLt_bf16_f32) (srcCol (m ((c : Thread nD τ).loc main_arg1)))) bitsLt_bf16_f32) := by
  show StableHlo.after hostOps1 (W2 m ρ c) (Proc.devRef .tc main_v37) = _
  after_results_simp
  rw [W2_v1, W2_v3]
  rfl

theorem V3_deg_term : V3 m ρ c main_v8 = W2 m ρ c (Proc.devRef .tc main_v8) := by
  show StableHlo.after hostOps1 (W2 m ρ c) (Proc.devRef .tc main_v8) = _
  after_results_simp <;> rfl

theorem V3_h_term : V3 m ρ c main_v25_0 = W2 m ρ c (Proc.devRef .tc main_v25_0) := by
  show StableHlo.after hostOps1 (W2 m ρ c) (Proc.devRef .tc main_v25_0) = _
  after_results_simp <;> rfl

theorem V3_b_term : V3 m ρ c main_v39 = shapeCast S1x64 (m ((c : Thread nD τ).loc main_arg6)) shapeCasts_S64_S1x64 := by
  show StableHlo.after hostOps1 (W2 m ρ c) (Proc.devRef .tc main_v39) = _
  after_results_simp
  rw [W2_arg6]
  rfl

theorem V3_wr_term : V3 m ρ c main_v38 = transpose S128x64 [1, 0] (m ((c : Thread nD τ).loc main_arg7)) transposes_S64x128_S128x64_1_0 := by
  show StableHlo.after hostOps1 (W2 m ρ c) (Proc.devRef .tc main_v38) = _
  after_results_simp
  rw [W2_arg7]

end Cert.KernelValue

end
-- ==== Proof.Host1Values.lean ====
/-
  The arrays the second pipeline is entered with, read as arrays of real numbers, given the first pipeline's
  second output as an array of reals: the second aggregate is the array of real segment sums of its rows; the
  second layer's right weights transposed; its bias as a row.
-/
import proofs.«144126_j10694468567472_2_alg».proof.Proof.Host1

noncomputable section

open Idealize.ShloMosaic Idealize.ShloMosaic.ValueIdx Idealize.ShloMosaic.TcCoe Idealize.SL.Sem Idealize.ShloMosaic.StableHlo
open Cert.KernelIdeal Cert.KernelIdeal.Gen Cert.IdealReal Cert.SageIndex Cert.SegmentRows

namespace Cert.KernelValue

variable [Cert.KernelIdeal.Facts]
variable (m : (ℓ : Loc nD τ sig) → Buf (Elt Ideal) ℓ) (ρ : Dev nD → PrngReg) (c : Dev nD)

/-- At the ideal values the accumulating scatter is the exact sum. -/
theorem hostScatterAdd_eq {s si su : Shape} {φ : FTy} {w : Nat} (d : ScatterDims s si su) (x : FVec Ideal s φ)
    (idx : IVec si w) (u : FVec Ideal su φ) : Host.scatterAdd d x idx u = Ideal.hostScatterAdd d x idx u := rfl

/-- The 64-column row gather's dimension numbers are those of taking rows by an index column. -/
theorem gatherDims64_eq :
    gather_S100000x64_S1600000x1_S1600000x64_1_0_n_n_0_1_164
      = rowGatherDims 100000 1600000 64 Facts₀.gather_S100000x64_S1600000x1_S1600000x64_1_0_n_n_0_1_164_wf := rfl

/-- The 64-column row scatter's dimension numbers are those of summing rows into segments. -/
theorem rowScatterDims64_eq :
    scatter_S100000x64_S1600000x1_S1600000x64_1_0_0_1
      = rowScatterDims 100000 1600000 64 Facts₀.scatter_S100000x64_S1600000x1_S1600000x64_1_0_0_1_wf := rfl

/-- The second aggregate: at `(r, j)` the sum, over the edges that target `r`, of the projected hidden row at the
    edge's source row. -/
theorem V3_agg (HL : Fin 100000 → Fin 64 → ℝ) (hHL : W2 m ρ c (Proc.devRef .tc main_v25_1) = lift2 HL) :
    V3 m ρ c main_v37 = lift2 (fun r j => ∑ e ∈ dstSeg (dstCol (m ((c : Thread nD τ).loc main_arg1))) r,
      HL (srcRow (srcCol (m ((c : Thread nD τ).loc main_arg1))) e) j) := by
  rw [V3_agg_term]
  refine eq_lift2 _ _ fun r j => ?_
  rw [hostScatterAdd_eq, rowScatterDims64_eq]
  refine segsum_apply _ _ _ _ (fun e k => HL (srcRow (srcCol (m ((c : Thread nD τ).loc main_arg1))) e) k)
    (fun i => zero_bcast _ i) (fun e k => ?_) r j
  rw [extf_apply, gatherDims64_eq, gather_rows_apply (by decide : 0 < 100000), truncf_apply, hHL, lift2_ix2]
  rfl

/-- The second layer's bias as a row. -/
theorem V3_b (b : Fin 64 → ℝ) (h : ∀ j, m ((c : Thread nD τ).loc main_arg6) (ix1 j) = ((b j : ℝ) : EReal)) :
    V3 m ρ c main_v39 = lift2 (fun (_ : Fin 1) j => b j) := by
  rw [V3_b_term]
  refine eq_lift2 _ _ fun a j => ?_
  rw [shapeCast_apply _ shapeCasts_S64_S1x64 (ix2 a j) (ix1 j) (by
    rewrite [Shape.rowMajor_val_one, Shape.rowMajor_val_two]
    have ha : a.val < 1 := a.isLt
    show j.val = a.val * 64 + j.val
    omega), h]

/-- The second layer's right weights, transposed. -/
theorem V3_wr (W : Fin 64 → Fin 128 → ℝ) (h : m ((c : Thread nD τ).loc main_arg7) = lift2 W) :
    V3 m ρ c main_v38 = lift2 (fun k j => W j k) := by
  rw [V3_wr_term]
  refine eq_lift2 _ _ fun k j => ?_
  rw [transpose_apply [1, 0] _ transposes_S64x128_S128x64_1_0 (ix2 k j) (ix2 j k) (fun d => match d with
    | ⟨0, _⟩ => rfl
    | ⟨1, _⟩ => rfl), h, lift2_ix2]

end Cert.KernelValue

end
-- ==== Proof.KernelResult.lean ====
/-
  The idealized kernel program's result as the real two-layer mean-aggregating graph convolution, in the
  arrangement that multiplies the hidden rows by the second layer's left weights before aggregating them.

  The first pipeline is entered with the aggregate of the features, the degree column, the features and the
  re-laid weights, all real; it leaves the hidden array and its product with the second layer's left weights.
  The host operations aggregate that product; the second pipeline divides it by the degree (at least one), adds
  the bias and the hidden array times the second layer's right weights.
-/
import proofs.«144126_j10694468567472_2_alg».proof.Proof.Regions
import proofs.«144126_j10694468567472_2_alg».proof.Proof.Host0Values
import proofs.«144126_j10694468567472_2_alg».proof.Proof.Host1Values
import proofs.«144126_j10694468567472_2_alg».proof.Proof.SageSpec
import proofs.«144126_j10694468567472_2_alg».proof.Proof.SageIndex

noncomputable section

open Idealize.ShloMosaic Idealize.ShloMosaic.ValueIdx Idealize.ShloMosaic.TcCoe Idealize.SL.Sem Idealize.ShloMosaic.StableHlo
open Cert.KernelIdeal Cert.KernelIdeal.Gen Cert.IdealReal Cert.SageIndex Cert.SegmentRows

namespace Cert.KernelValue

variable [Cert.KernelIdeal.Facts]
variable (m : (ℓ : Loc nD τ sig) → Buf (Elt Ideal) ℓ) (ρ : Dev nD → PrngReg) (c : Dev nD)

/-- The block arithmetic of the first pipeline, over the whole arrays, is the specification's hidden layer. -/
theorem hidBlock_eq_hid (gi si : EdgeCol) (x' : Fin 100000 → Fin 128 → ℝ) (Wl1' : Fin 128 → Fin 128 → ℝ)
    (bl1' : Fin 128 → ℝ) (Wr1' : Fin 128 → Fin 128 → ℝ) :
    hidBlock (fun r k => ∑ e ∈ dstSeg si r, x' (srcRow gi e) k) (fun r => ((dstSeg si r).card : ℝ)) x'
        (fun k q => Wl1' q k) (fun k q => Wr1' q k) bl1'
      = Cert.SageSpec.hid (srcRow gi) (dstSeg si) (divisor si) x' Wl1' bl1' Wr1' := rfl

/-- THE RESULT: with every float argument an array of reals, the last boundary's contents at the result buffer
    are the real convolution, projected-first arrangement. -/
theorem result_eq
    (x' : Fin 100000 → Fin 128 → ℝ) (Wl1' : Fin 128 → Fin 128 → ℝ) (bl1' : Fin 128 → ℝ) (Wr1' : Fin 128 → Fin 128 → ℝ)
    (Wl2' : Fin 64 → Fin 128 → ℝ) (bl2' : Fin 64 → ℝ) (Wr2' : Fin 64 → Fin 128 → ℝ)
    (h0 : m ((c : Thread nD τ).loc main_arg0) = lift2 x') (h2 : m ((c : Thread nD τ).loc main_arg2) = lift2 Wl1')
    (h3 : ∀ q, m ((c : Thread nD τ).loc main_arg3) (ix1 q) = ((bl1' q : ℝ) : EReal))
    (h4 : m ((c : Thread nD τ).loc main_arg4) = lift2 Wr1') (h5 : m ((c : Thread nD τ).loc main_arg5) = lift2 Wl2')
    (h6 : ∀ j, m ((c : Thread nD τ).loc main_arg6) (ix1 j) = ((bl2' j : ℝ) : EReal))
    (h7 : m ((c : Thread nD τ).loc main_arg7) = lift2 Wr2') :
    W4 m ρ c (Proc.devRef .tc main_v40)
      = lift2 (Cert.SageSpec.outProjFirst (srcRow (srcCol (m ((c : Thread nD τ).loc main_arg1))))
          (dstSeg (dstCol (m ((c : Thread nD τ).loc main_arg1)))) (divisor (dstCol (m ((c : Thread nD τ).loc main_arg1))))
          x' Wl1' bl1' Wr1' Wl2' bl2' Wr2') := by
  have r0 := region0_out (V1 m ρ) c _ _ _ _ _ _ _ (V1_agg m ρ c x' h0) (V1_deg m ρ c) (V1_x m ρ c x' h0)
    (V1_wl m ρ c Wl1' h2) (V1_b m ρ c bl1' h3) (V1_wr m ρ c Wr1' h4) (V1_wl2 m ρ c Wl2' h5)
  rw [hidBlock_eq_hid] at r0
  have hH := (V3_h_term m ρ c).trans ((W2_h m ρ c).trans r0.1)
  have hHL := (W2_hl m ρ c).trans r0.2
  have r1 := region1_out (V3 m ρ) c _ _ _ _ _ (V3_agg m ρ c _ hHL)
    ((V3_deg_term m ρ c).trans ((W2_deg m ρ c).trans (V1_deg m ρ c))) hH (V3_b m ρ c bl2' h6) (V3_wr m ρ c Wr2' h7)
  exact (W4_arr m ρ c 5).trans r1

end Cert.KernelValue

end
-- ==== Proof.RefValue.lean ====
/-
  The reference's result, entry by entry, as the real two-layer mean-aggregating graph convolution
  (aggregate the hidden rows, then multiply by the second layer's left weights) of real input arrays.
-/
import proofs.«144126_j10694468567472_2_alg».proof.Proof.Gen.ReferenceIdeal.Read
import proofs.«144126_j10694468567472_2_alg».proof.Proof.LibSegmentRows
import proofs.«144126_j10694468567472_2_alg».proof.Proof.LibERealSums
import proofs.«144126_j10694468567472_2_alg».proof.Proof.SageSpec
import proofs.«144126_j10694468567472_2_alg».proof.Proof.SageIndex
import Idealize.ShloMosaic.Lib.ValueIdx
import Idealize.ShloMosaic.Lib.IdealHost

noncomputable section

open Idealize.ShloMosaic Idealize.ShloMosaic.ValueIdx Cert.ReferenceIdeal Cert.ReferenceIdeal.Read
open Cert.SegmentRows Cert.SageIndex

namespace Cert.RefValue

variable [Cert.ReferenceIdeal.Facts]

/-! ### The dimension records and the repeated operations -/

theorem gatherDims_eq :
    gather_S100000x128_S1600000x1_S1600000x128_1_0_n_n_0_1_1128
      = rowGatherDims 100000 1600000 128 Facts₀.gather_S100000x128_S1600000x1_S1600000x128_1_0_n_n_0_1_1128_wf := rfl
theorem rowScatterDims_eq :
    scatter_S100000x128_S1600000x1_S1600000x128_1_0_0_1
      = rowScatterDims 100000 1600000 128 Facts₀.scatter_S100000x128_S1600000x1_S1600000x128_1_0_0_1_wf := rfl
theorem vecScatterDims_eq :
    scatter_S100000_S1600000x1_S1600000_n_0_0_1
      = vecScatterDims 100000 1600000 Facts₀.scatter_S100000_S1600000x1_S1600000_n_0_0_1_wf := rfl

theorem v16_eq (x1 : (⟨S2x1600000, .i32⟩ : BufTy).Contents (Elt Ideal)) :
    val_main_v16 (F := Ideal) x1 = val_main_v12 (F := Ideal) x1 := rfl
theorem v40_eq (x1 : (⟨S2x1600000, .i32⟩ : BufTy).Contents (Elt Ideal)) :
    val_main_v40 (F := Ideal) x1 = val_main_v12 (F := Ideal) x1 := rfl
theorem v44_eq (x1 : (⟨S2x1600000, .i32⟩ : BufTy).Contents (Elt Ideal)) :
    val_main_v44 (F := Ideal) x1 = val_main_v12 (F := Ideal) x1 := rfl
theorem v37_eq (x1 : (⟨S2x1600000, .i32⟩ : BufTy).Contents (Elt Ideal)) :
    val_main_v37 (F := Ideal) x1 = val_main_v9 (F := Ideal) x1 := rfl

theorem v49_eq (x1 : (⟨S2x1600000, .i32⟩ : BufTy).Contents (Elt Ideal)) :
    val_main_v49 (F := Ideal) x1 = val_main_v21 (F := Ideal) x1 := rfl

theorem hostScatterAdd_eq {s si su : Shape} {φ : FTy} {w : Nat} (d : ScatterDims s si su) (x : FVec Ideal s φ)
    (idx : IVec si w) (u : FVec Ideal su φ) : Host.scatterAdd d x idx u = Ideal.hostScatterAdd d x idx u := rfl

/-! ### The degree and the divisor -/

/-- The coercion of reals into the extended reals is monotone, so it commutes with `max`. -/
theorem coe_max (a b : ℝ) : ((max a b : ℝ) : EReal) = max (a : EReal) (b : EReal) :=
  EReal.coe_strictMono.monotone.map_max

theorem v17_apply (x1 : (⟨S2x1600000, .i32⟩ : BufTy).Contents (Elt Ideal)) (r : Fin 100000) :
    val_main_v17 (F := Ideal) x1 (ix1 r)
      = ((((dstSeg (val_main_v12 (F := Ideal) x1) r).card : ℝ)) : EReal) := by
  unfold val_main_v17
  rw [hostScatterAdd_eq, vecScatterDims_eq, v16_eq]
  rw [scatterAdd_vec_apply]
  rw [val_main_v15_apply, val_main_cst_2_apply, Ideal.ofBits_def, Ideal.ofBits_zero_f32, zero_add]
  rw [Cert.LibERealSums.sum_eq_coe _ _ (fun _ => (1 : ℝ)) (fun e _ => by
    rw [val_main_v14_apply, val_main_cst_1_apply, Ideal.ofBits_def, Ideal.ofBits_one_f32, EReal.coe_one])]
  rw [Finset.sum_const, nsmul_eq_mul, mul_one]
  rfl

theorem v19_apply (x1 : (⟨S2x1600000, .i32⟩ : BufTy).Contents (Elt Ideal)) (r : Fin 100000) :
    val_main_v19 (F := Ideal) x1 (ix1 r) = ((divisor (val_main_v12 (F := Ideal) x1) r : ℝ) : EReal) := by
  rw [val_main_v19_apply, Ideal.maximumf_def, v17_apply, val_main_v18_apply, val_main_cst_3_apply, Ideal.ofBits_def,
    Ideal.ofBits_one_f32, ← EReal.coe_one, ← coe_max]
  rfl

theorem v21_apply (x1 : (⟨S2x1600000, .i32⟩ : BufTy).Contents (Elt Ideal)) (r : Fin 100000) (k : Fin 128) :
    val_main_v21 (F := Ideal) x1 (ix2 r k) = ((divisor (val_main_v12 (F := Ideal) x1) r : ℝ) : EReal) := by
  rw [val_main_v21_apply, val_main_v20_apply]
  have e : idx_main_v20 (idx_main_v21 (ix2 r k)) = ix1 r :=
    funext fun a => Fin.ext (by match a with | ⟨0, _⟩ => rfl)
  rw [e, v19_apply]

/-! ### The aggregate of an array of reals -/

/-- Taking the source rows of an array of reals and summing them into the target segments, from zero:
    at `(r, k)` the sum over the edges that target `r` of the source row's entry `k`. -/
theorem agg_apply (y z : (⟨S100000x128, .f32⟩ : BufTy).Contents (Elt Ideal)) (gi si : EdgeCol)
    (y' : Fin 100000 → Fin 128 → ℝ) (hy : ∀ a b, y (ix2 a b) = ((y' a b : ℝ) : EReal))
    (hz : ∀ a b, z (ix2 a b) = 0) (r : Fin 100000) (k : Fin 128) :
    Host.scatterAdd (F := Ideal) (φ := .f32) scatter_S100000x128_S1600000x1_S1600000x128_1_0_0_1 z si
        (Host.gather gather_S100000x128_S1600000x1_S1600000x128_1_0_n_n_0_1_1128 y gi) (ix2 r k)
      = ((∑ e ∈ dstSeg si r, y' (srcRow gi e) k : ℝ) : EReal) := by
  rw [hostScatterAdd_eq, rowScatterDims_eq, gatherDims_eq, scatterAdd_rows_apply, hz, zero_add]
  refine Cert.LibERealSums.sum_eq_coe _ _ _ fun e _ => ?_
  rw [gather_rows_apply (by decide : 0 < 100000)]
  exact hy _ _

/-- The zero arrays the row scatters accumulate into. -/
theorem v11_apply (a : Fin 100000) (b : Fin 128) : val_main_v11 (F := Ideal) (ix2 a b) = 0 := by
  rw [val_main_v11_apply, val_main_cst_apply, Ideal.ofBits_def, Ideal.ofBits_zero_f32]

theorem v39_apply (a : Fin 100000) (b : Fin 128) : val_main_v39 (F := Ideal) (ix2 a b) = 0 := by
  rw [val_main_v39_apply, val_main_cst_6_apply, Ideal.ofBits_def, Ideal.ofBits_zero_f32]

/-- The first layer's aggregate of the input rows. -/
theorem v13_apply (x0 : (⟨S100000x128, .f32⟩ : BufTy).Contents (Elt Ideal))
    (x1 : (⟨S2x1600000, .i32⟩ : BufTy).Contents (Elt Ideal)) (x' : Fin 100000 → Fin 128 → ℝ)
    (h0 : ∀ a b, x0 (ix2 a b) = ((x' a b : ℝ) : EReal)) (r : Fin 100000) (k : Fin 128) :
    val_main_v13 (F := Ideal) x0 x1 (ix2 r k)
      = ((∑ e ∈ dstSeg (val_main_v12 (F := Ideal) x1) r, x' (srcRow (val_main_v9 (F := Ideal) x1) e) k : ℝ) : EReal) := by
  unfold val_main_v13 val_main_v10
  exact agg_apply x0 _ _ _ x' h0 v11_apply r k

/-! ### The first layer -/

/-- The first layer's mean aggregate: the aggregate over the divisor, which is not zero. -/
theorem v22_apply (x0 : (⟨S100000x128, .f32⟩ : BufTy).Contents (Elt Ideal)) (x1 : (⟨S2x1600000, .i32⟩ : BufTy).Contents (Elt Ideal)) (x' : Fin 100000 → Fin 128 → ℝ) (h0 : ∀ a b, x0 (ix2 a b) = ((x' a b : ℝ) : EReal)) (r : Fin 100000) (k : Fin 128) :
    val_main_v22 (F := Ideal) x0 x1 (ix2 r k) = ((Cert.SageSpec.mean (srcRow (val_main_v9 (F := Ideal) x1)) (dstSeg (val_main_v12 (F := Ideal) x1)) (divisor (val_main_v12 (F := Ideal) x1)) x' r k : ℝ) : EReal) := by
  rw [val_main_v22_apply, Ideal.hostDivf_def, v13_apply x0 x1 x' h0, v21_apply,
    Ideal.div_coe (divisor_ne_zero _ _), ← EReal.coe_mul, ← div_eq_mul_one_div]
  rfl

theorem lidx24 (r : Fin 100000) (k q : Fin 128) : lidx_main_v24 (ix2 r k) q = ix2 r q := funext fun a => Fin.ext (by match a with | ⟨0, _⟩ => rfl | ⟨1, _⟩ => rfl)
theorem ridx24 (r : Fin 100000) (k q : Fin 128) : ridx_main_v24 (ix2 r k) q = ix2 q k := funext fun a => Fin.ext (by match a with | ⟨0, _⟩ => rfl | ⟨1, _⟩ => rfl)
theorem idx23 (q k : Fin 128) : idx_main_v23 (ix2 q k) = ix2 k q := funext fun a => Fin.ext (by match a with | ⟨0, _⟩ => rfl | ⟨1, _⟩ => rfl)
theorem lidx29 (r : Fin 100000) (k q : Fin 128) : lidx_main_v29 (ix2 r k) q = ix2 r q := funext fun a => Fin.ext (by match a with | ⟨0, _⟩ => rfl | ⟨1, _⟩ => rfl)
theorem ridx29 (r : Fin 100000) (k q : Fin 128) : ridx_main_v29 (ix2 r k) q = ix2 q k := funext fun a => Fin.ext (by match a with | ⟨0, _⟩ => rfl | ⟨1, _⟩ => rfl)
theorem idx28 (q k : Fin 128) : idx_main_v28 (ix2 q k) = ix2 k q := funext fun a => Fin.ext (by match a with | ⟨0, _⟩ => rfl | ⟨1, _⟩ => rfl)
theorem idx26 (r : Fin 100000) (k : Fin 128) : idx_main_v25 (idx_main_v26 (ix2 r k)) = ix1 k := funext fun a => Fin.ext (by match a with | ⟨0, _⟩ => rfl)

/-- The mean aggregate times the transposed left weights. -/
theorem v24_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x' : Fin 100000 → Fin 128 → ℝ) (Wl1' : Fin 128 → Fin 128 → ℝ) (h0 : ∀ a b, x0 (ix2 a b) = ((x' a b : ℝ) : EReal)) (h2 : ∀ a b, x2 (ix2 a b) = ((Wl1' a b : ℝ) : EReal)) (r : Fin 100000) (k : Fin 128) :
    val_main_v24 (F := Ideal) x0 x1 x2 (ix2 r k) = ((∑ q, Cert.SageSpec.mean (srcRow (val_main_v9 (F := Ideal) x1)) (dstSeg (val_main_v12 (F := Ideal) x1)) (divisor (val_main_v12 (F := Ideal) x1)) x' r q * Wl1' k q : ℝ) : EReal) := by
  rw [val_main_v24_apply]
  refine Cert.LibERealSums.sum_eq_coe _ _ _ fun q _ => ?_
  rw [lidx24, ridx24, v22_apply x0 x1 x' h0, val_main_v23_apply, idx23, h2, ← EReal.coe_mul]

/-- The bias broadcast along the rows. -/
theorem v26_apply (x3 : (⟨S128, .f32⟩ : BufTy).Contents (Elt Ideal)) (bl1' : Fin 128 → ℝ) (h3 : ∀ a, x3 (ix1 a) = ((bl1' a : ℝ) : EReal)) (r : Fin 100000) (k : Fin 128) :
    val_main_v26 (F := Ideal) x3 (ix2 r k) = ((bl1' k : ℝ) : EReal) := by
  rw [val_main_v26_apply, val_main_v25_apply, idx26, h3]

/-- The input rows times the transposed right weights. -/
theorem v29_apply (x0 : (⟨S100000x128, .f32⟩ : BufTy).Contents (Elt Ideal)) (x4 : (⟨S128x128, .f32⟩ : BufTy).Contents (Elt Ideal)) (x' : Fin 100000 → Fin 128 → ℝ) (Wr1' : Fin 128 → Fin 128 → ℝ) (h0 : ∀ a b, x0 (ix2 a b) = ((x' a b : ℝ) : EReal)) (h4 : ∀ a b, x4 (ix2 a b) = ((Wr1' a b : ℝ) : EReal)) (r : Fin 100000) (k : Fin 128) :
    val_main_v29 (F := Ideal) x0 x4 (ix2 r k) = ((∑ q, x' r q * Wr1' k q : ℝ) : EReal) := by
  rw [val_main_v29_apply]
  refine Cert.LibERealSums.sum_eq_coe _ _ _ fun q _ => ?_
  rw [lidx29, ridx29, h0, val_main_v28_apply, idx28, h4, ← EReal.coe_mul]

/-- The zero array the hidden layer is clipped against. -/
theorem call0_apply (r : Fin 100000) (k : Fin 128) : val_main_call0_v0 (F := Ideal) (ix2 r k) = 0 := by
  rw [val_main_call0_v0_apply, val_main_call0_cst_apply, Ideal.ofBits_def, Ideal.ofBits_zero_f32]

/-- The hidden layer. -/
theorem v31_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x' : Fin 100000 → Fin 128 → ℝ) (Wl1' : Fin 128 → Fin 128 → ℝ) (bl1' : Fin 128 → ℝ) (Wr1' : Fin 128 → Fin 128 → ℝ) (h0 : ∀ a b, x0 (ix2 a b) = ((x' a b : ℝ) : EReal)) (h2 : ∀ a b, x2 (ix2 a b) = ((Wl1' a b : ℝ) : EReal)) (h3 : ∀ a, x3 (ix1 a) = ((bl1' a : ℝ) : EReal)) (h4 : ∀ a b, x4 (ix2 a b) = ((Wr1' a b : ℝ) : EReal)) (r : Fin 100000) (k : Fin 128) :
    val_main_v31 (F := Ideal) x0 x1 x2 x3 x4 (ix2 r k) = ((Cert.SageSpec.hid (srcRow (val_main_v9 (F := Ideal) x1)) (dstSeg (val_main_v12 (F := Ideal) x1)) (divisor (val_main_v12 (F := Ideal) x1)) x' Wl1' bl1' Wr1' r k : ℝ) : EReal) := by
  rw [val_main_v31_apply, val_main_v30_apply, val_main_v27_apply, Ideal.maximumf_def, Ideal.addf_def, Ideal.addf_def,
    v24_apply x0 x1 x2 x' Wl1' h0 h2, v26_apply x3 bl1' h3, v29_apply x0 x4 x' Wr1' h0 h4, call0_apply,
    ← EReal.coe_add, ← EReal.coe_add, ← EReal.coe_zero, ← coe_max]
  rfl

/-! ### The second layer -/

/-- The second layer's aggregate of the hidden rows. -/
theorem v41_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x' : Fin 100000 → Fin 128 → ℝ) (Wl1' : Fin 128 → Fin 128 → ℝ) (bl1' : Fin 128 → ℝ) (Wr1' : Fin 128 → Fin 128 → ℝ) (h0 : ∀ a b, x0 (ix2 a b) = ((x' a b : ℝ) : EReal)) (h2 : ∀ a b, x2 (ix2 a b) = ((Wl1' a b : ℝ) : EReal)) (h3 : ∀ a, x3 (ix1 a) = ((bl1' a : ℝ) : EReal)) (h4 : ∀ a b, x4 (ix2 a b) = ((Wr1' a b : ℝ) : EReal)) (r : Fin 100000) (k : Fin 128) :
    val_main_v41 (F := Ideal) x0 x1 x2 x3 x4 (ix2 r k)
      = ((∑ e ∈ (dstSeg (val_main_v12 (F := Ideal) x1)) r, Cert.SageSpec.hid (srcRow (val_main_v9 (F := Ideal) x1)) (dstSeg (val_main_v12 (F := Ideal) x1)) (divisor (val_main_v12 (F := Ideal) x1)) x' Wl1' bl1' Wr1' ((srcRow (val_main_v9 (F := Ideal) x1)) e) k : ℝ) : EReal) := by
  unfold val_main_v41 val_main_v38
  rw [v40_eq, v37_eq]
  exact agg_apply _ _ _ _ (Cert.SageSpec.hid (srcRow (val_main_v9 (F := Ideal) x1)) (dstSeg (val_main_v12 (F := Ideal) x1)) (divisor (val_main_v12 (F := Ideal) x1)) x' Wl1' bl1' Wr1')
    (fun a b => v31_apply x0 x1 x2 x3 x4 x' Wl1' bl1' Wr1' h0 h2 h3 h4 a b) v39_apply r k

/-- The second layer's mean aggregate. -/
theorem v50_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x' : Fin 100000 → Fin 128 → ℝ) (Wl1' : Fin 128 → Fin 128 → ℝ) (bl1' : Fin 128 → ℝ) (Wr1' : Fin 128 → Fin 128 → ℝ) (h0 : ∀ a b, x0 (ix2 a b) = ((x' a b : ℝ) : EReal)) (h2 : ∀ a b, x2 (ix2 a b) = ((Wl1' a b : ℝ) : EReal)) (h3 : ∀ a, x3 (ix1 a) = ((bl1' a : ℝ) : EReal)) (h4 : ∀ a b, x4 (ix2 a b) = ((Wr1' a b : ℝ) : EReal)) (r : Fin 100000) (k : Fin 128) :
    val_main_v50 (F := Ideal) x0 x1 x2 x3 x4 (ix2 r k) = ((Cert.SageSpec.mean (srcRow (val_main_v9 (F := Ideal) x1)) (dstSeg (val_main_v12 (F := Ideal) x1)) (divisor (val_main_v12 (F := Ideal) x1)) (Cert.SageSpec.hid (srcRow (val_main_v9 (F := Ideal) x1)) (dstSeg (val_main_v12 (F := Ideal) x1)) (divisor (val_main_v12 (F := Ideal) x1)) x' Wl1' bl1' Wr1') r k : ℝ) : EReal) := by
  rw [val_main_v50_apply, Ideal.hostDivf_def, v41_apply x0 x1 x2 x3 x4 x' Wl1' bl1' Wr1' h0 h2 h3 h4, v49_eq, v21_apply,
    Ideal.div_coe (divisor_ne_zero _ _), ← EReal.coe_mul, ← div_eq_mul_one_div]
  rfl

theorem lidx52 (r : Fin 100000) (j : Fin 64) (k : Fin 128) : lidx_main_v52 (ix2 r j) k = ix2 r k := funext fun a => Fin.ext (by match a with | ⟨0, _⟩ => rfl | ⟨1, _⟩ => rfl)
theorem ridx52 (r : Fin 100000) (j : Fin 64) (k : Fin 128) : ridx_main_v52 (ix2 r j) k = ix2 k j := funext fun a => Fin.ext (by match a with | ⟨0, _⟩ => rfl | ⟨1, _⟩ => rfl)
theorem idx51 (k : Fin 128) (j : Fin 64) : idx_main_v51 (ix2 k j) = ix2 j k := funext fun a => Fin.ext (by match a with | ⟨0, _⟩ => rfl | ⟨1, _⟩ => rfl)
theorem lidx57 (r : Fin 100000) (j : Fin 64) (k : Fin 128) : lidx_main_v57 (ix2 r j) k = ix2 r k := funext fun a => Fin.ext (by match a with | ⟨0, _⟩ => rfl | ⟨1, _⟩ => rfl)
theorem ridx57 (r : Fin 100000) (j : Fin 64) (k : Fin 128) : ridx_main_v57 (ix2 r j) k = ix2 k j := funext fun a => Fin.ext (by match a with | ⟨0, _⟩ => rfl | ⟨1, _⟩ => rfl)
theorem idx56 (k : Fin 128) (j : Fin 64) : idx_main_v56 (ix2 k j) = ix2 j k := funext fun a => Fin.ext (by match a with | ⟨0, _⟩ => rfl | ⟨1, _⟩ => rfl)
theorem idx54 (r : Fin 100000) (j : Fin 64) : idx_main_v53 (idx_main_v54 (ix2 r j)) = ix1 j := funext fun a => Fin.ext (by match a with | ⟨0, _⟩ => rfl)

/-- The mean aggregate of the hidden rows times the transposed left weights. -/
theorem v52_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x' : Fin 100000 → Fin 128 → ℝ) (Wl1' : Fin 128 → Fin 128 → ℝ) (bl1' : Fin 128 → ℝ) (Wr1' : Fin 128 → Fin 128 → ℝ) (Wl2' : Fin 64 → Fin 128 → ℝ) (h0 : ∀ a b, x0 (ix2 a b) = ((x' a b : ℝ) : EReal)) (h2 : ∀ a b, x2 (ix2 a b) = ((Wl1' a b : ℝ) : EReal)) (h3 : ∀ a, x3 (ix1 a) = ((bl1' a : ℝ) : EReal)) (h4 : ∀ a b, x4 (ix2 a b) = ((Wr1' a b : ℝ) : EReal)) (h5 : ∀ a b, x5 (ix2 a b) = ((Wl2' a b : ℝ) : EReal)) (r : Fin 100000) (j : Fin 64) :
    val_main_v52 (F := Ideal) x0 x1 x2 x3 x4 x5 (ix2 r j) = ((∑ k, Cert.SageSpec.mean (srcRow (val_main_v9 (F := Ideal) x1)) (dstSeg (val_main_v12 (F := Ideal) x1)) (divisor (val_main_v12 (F := Ideal) x1)) (Cert.SageSpec.hid (srcRow (val_main_v9 (F := Ideal) x1)) (dstSeg (val_main_v12 (F := Ideal) x1)) (divisor (val_main_v12 (F := Ideal) x1)) x' Wl1' bl1' Wr1') r k * Wl2' j k : ℝ) : EReal) := by
  rw [val_main_v52_apply]
  refine Cert.LibERealSums.sum_eq_coe _ _ _ fun k _ => ?_
  rw [lidx52, ridx52, v50_apply x0 x1 x2 x3 x4 x' Wl1' bl1' Wr1' h0 h2 h3 h4, val_main_v51_apply, idx51, h5,
    ← EReal.coe_mul]

/-- The second bias broadcast along the rows. -/
theorem v54_apply (x6 : (⟨S64, .f32⟩ : BufTy).Contents (Elt Ideal)) (bl2' : Fin 64 → ℝ) (h6 : ∀ a, x6 (ix1 a) = ((bl2' a : ℝ) : EReal)) (r : Fin 100000) (j : Fin 64) :
    val_main_v54 (F := Ideal) x6 (ix2 r j) = ((bl2' j : ℝ) : EReal) := by
  rw [val_main_v54_apply, val_main_v53_apply, idx54, h6]

/-- The hidden rows times the transposed right weights. -/
theorem v57_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x7 : (⟨S64x128, .f32⟩ : BufTy).Contents (Elt Ideal)) (x' : Fin 100000 → Fin 128 → ℝ) (Wl1' : Fin 128 → Fin 128 → ℝ) (bl1' : Fin 128 → ℝ) (Wr1' : Fin 128 → Fin 128 → ℝ) (Wr2' : Fin 64 → Fin 128 → ℝ) (h0 : ∀ a b, x0 (ix2 a b) = ((x' a b : ℝ) : EReal)) (h2 : ∀ a b, x2 (ix2 a b) = ((Wl1' a b : ℝ) : EReal)) (h3 : ∀ a, x3 (ix1 a) = ((bl1' a : ℝ) : EReal)) (h4 : ∀ a b, x4 (ix2 a b) = ((Wr1' a b : ℝ) : EReal)) (h7 : ∀ a b, x7 (ix2 a b) = ((Wr2' a b : ℝ) : EReal)) (r : Fin 100000) (j : Fin 64) :
    val_main_v57 (F := Ideal) x0 x1 x2 x3 x4 x7 (ix2 r j) = ((∑ k, Cert.SageSpec.hid (srcRow (val_main_v9 (F := Ideal) x1)) (dstSeg (val_main_v12 (F := Ideal) x1)) (divisor (val_main_v12 (F := Ideal) x1)) x' Wl1' bl1' Wr1' r k * Wr2' j k : ℝ) : EReal) := by
  rw [val_main_v57_apply]
  refine Cert.LibERealSums.sum_eq_coe _ _ _ fun k _ => ?_
  rw [lidx57, ridx57, v31_apply x0 x1 x2 x3 x4 x' Wl1' bl1' Wr1' h0 h2 h3 h4, val_main_v56_apply, idx56, h7,
    ← EReal.coe_mul]

/-- With every float argument an array of reals, the reference's result at `(r, j)` is the real
    convolution's entry: the source rows are read through the normalised source column, the segments and
    divisors through the target column. -/
theorem result_apply
    (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal))
    (x' : Fin 100000 → Fin 128 → ℝ) (Wl1' : Fin 128 → Fin 128 → ℝ) (bl1' : Fin 128 → ℝ) (Wr1' : Fin 128 → Fin 128 → ℝ)
    (Wl2' : Fin 64 → Fin 128 → ℝ) (bl2' : Fin 64 → ℝ) (Wr2' : Fin 64 → Fin 128 → ℝ)
    (h0 : ∀ a b, x0 (ix2 a b) = ((x' a b : ℝ) : EReal)) (h2 : ∀ a b, x2 (ix2 a b) = ((Wl1' a b : ℝ) : EReal))
    (h3 : ∀ a, x3 (ix1 a) = ((bl1' a : ℝ) : EReal)) (h4 : ∀ a b, x4 (ix2 a b) = ((Wr1' a b : ℝ) : EReal))
    (h5 : ∀ a b, x5 (ix2 a b) = ((Wl2' a b : ℝ) : EReal)) (h6 : ∀ a, x6 (ix1 a) = ((bl2' a : ℝ) : EReal))
    (h7 : ∀ a b, x7 (ix2 a b) = ((Wr2' a b : ℝ) : EReal)) (r : Fin 100000) (j : Fin 64) :
    val_main_v58 (F := Ideal) x0 x1 x2 x3 x4 x5 x6 x7 (ix2 r j)
      = ((Cert.SageSpec.outAggFirst (srcRow (val_main_v9 (F := Ideal) x1)) (dstSeg (val_main_v12 (F := Ideal) x1))
          (divisor (val_main_v12 (F := Ideal) x1)) x' Wl1' bl1' Wr1' Wl2' bl2' Wr2' r j : ℝ) : EReal) := by
  rw [val_main_v58_apply, val_main_v55_apply, Ideal.addf_def, Ideal.addf_def,
    v52_apply x0 x1 x2 x3 x4 x5 x' Wl1' bl1' Wr1' Wl2' h0 h2 h3 h4 h5, v54_apply x6 bl2' h6,
    v57_apply x0 x1 x2 x3 x4 x7 x' Wl1' bl1' Wr1' Wr2' h0 h2 h3 h4 h7, ← EReal.coe_add, ← EReal.coe_add]
  rfl

end Cert.RefValue

end
-- ==== Proof.FiniteInputs.lean ====
import proofs.«144126_j10694468567472_2_alg».proof.Defs
import proofs.«144126_j10694468567472_2_alg».proof.Proof.Gen.Pre_finite_inputs
import Idealize.ShloMosaic.Lib.ReduceAll
import Idealize.ShloMosaic.Lib.ValueIdx
import Idealize.ShloMosaic.Lib.IdealHost

/-!
# Finite inputs are real

The programs are read with a float as an extended real. The precondition says, for each float argument array `x`,
that the conjunction over all entries of `|x i| < +∞` is true, where `|x|` is `max x (-x)` and `+∞` is what the
single-precision pattern `0x7F800000` denotes. An extended real with `max x (-x) < ⊤` is neither `⊤` nor `⊥`, hence
the coercion of a real number. A conjunction that is true has every conjunct true, so every entry of every float
argument is a real number.
-/

namespace Cert.FiniteInputs

open Idealize.ShloMosaic Idealize.SL.Sem

/-- An extended real whose absolute value `max x (-x)` lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern `0x7F800000` (exponent all ones, significand zero, sign clear) denotes `+∞`. -/
theorem ofBits_inf : Ideal.ofBits .f32 0x7F800000#32 = (⊤ : EReal) := by
  simp [Ideal.ofBits, Ideal.ieee]

/-- A one-bit word built from a Boolean is `1` only when the Boolean is true. -/
theorem ofBool_eq_one : ∀ {b : Bool}, BitVec.ofBool b = 1#1 → b = true := by decide

/-- A rank-0 shape has exactly one index. -/
local instance scalarIdxSubsingleton : Subsingleton Cert.Pre_finite_inputs.S_.Idx := ⟨fun a b => funext fun d => d.elim0⟩

/-- If the conjunction over all entries of `|x i| < +∞` holds, every entry of `x` is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1)
    (i : s.Idx) : ∃ r : ℝ, x i = (r : EReal) := by
  have h1 := Host.reduce_andi_all _ _ hr hu j e i
  have h2 : Ideal.cmp .olt (max (x i) (-(x i))) (Ideal.ofBits .f32 0x7F800000#32) = 1#1 := by
    rw [← h1]
    show _ = Ideal.cmp .olt (max (x i) (-(x i)))
      (broadcastInDim s ![] hb (constant Cert.Pre_finite_inputs.S_ .f32 0x7F800000#32 : FVec Ideal _ .f32) i)
    rw [ValueIdx.broadcastInDim_scalar_apply]
    rfl
  rw [ofBits_inf] at h2
  exact real_of_abs_lt_top (x i) (of_decide_eq_true (ofBool_eq_one h2))

open Cert.Pre_finite_inputs in
/-- The precondition's predicate is the conjunction, over the seven float arguments, of "every entry has absolute value
    below `+∞`"; when it is true every entry of every float argument is a real number. -/
theorem real_of_fn [Cert.Pre_finite_inputs.Facts]
    (a0 : FVec Ideal S100000x128 .f32) (a1 : IVec S2x1600000 32) (a2 : FVec Ideal S128x128 .f32)
    (a3 : FVec Ideal S128 .f32) (a4 : FVec Ideal S128x128 .f32) (a5 : FVec Ideal S64x128 .f32)
    (a6 : FVec Ideal S64 .f32) (a7 : FVec Ideal S64x128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) := by
  have h0 := congrFun h ValueIdx.ix0
  dsimp only [Cert.Pre_finite_inputs.fn, Cert.Pre_finite_inputs.fn_part1] at h0
  obtain ⟨h0, e7⟩ := IntOp.andi_eq_one.1 (show IntOp.andi _ _ = 1#1 from h0)
  obtain ⟨h0, e6⟩ := IntOp.andi_eq_one.1 (show IntOp.andi _ _ = 1#1 from h0)
  obtain ⟨h0, e5⟩ := IntOp.andi_eq_one.1 (show IntOp.andi _ _ = 1#1 from h0)
  obtain ⟨h0, e4⟩ := IntOp.andi_eq_one.1 (show IntOp.andi _ _ = 1#1 from h0)
  obtain ⟨h0, e3⟩ := IntOp.andi_eq_one.1 (show IntOp.andi _ _ = 1#1 from h0)
  obtain ⟨e0, e2⟩ := IntOp.andi_eq_one.1 (show IntOp.andi _ _ = 1#1 from h0)
  exact ⟨real_of_all a0 _ _ _ _ e0, real_of_all a2 _ _ _ _ e2, real_of_all a3 _ _ _ _ e3,
    real_of_all a4 _ _ _ _ e4, real_of_all a5 _ _ _ _ e5, real_of_all a6 _ _ _ _ e6,
    real_of_all a7 _ _ _ _ e7⟩

/-- Under the precondition of the idealized kernel program, every entry of each of its seven float argument arrays
    is a real number, on every device. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) :=
  real_of_fn _ _ _ _ _ _ _ _ (hpre c)

end Cert.FiniteInputs
-- ==== Proof.lean ====
/-
  Two-layer mean-aggregating graph convolution: a kernel program of two pipelines against its reference.

  Both programs take node features `x`, an edge array and six weight arrays. With `S v` the sum, into every node,
  of the rows of `v` at the sources of the edges that target it, and `D` the number of those edges (at least one),
  both compute the hidden layer `h = max (S x / D · Wl1ᵀ + bl1 + x · Wr1ᵀ) 0`. The reference then computes
  `S h / D · Wl2ᵀ + bl2 + h · Wr2ᵀ`; the kernel multiplies first and aggregates the narrower rows,
  `S (h · Wl2ᵀ) / D + bl2 + h · Wr2ᵀ`. Over the reals the two agree: a finite sum commutes with the matrix product
  and with the division by `D`. Over the extended reals the precondition is what makes this usable: every float
  input is finite, hence every array met on the way is an array of reals (sums, products and maxima of reals,
  quotients by a real that is at least one), and both results are the coercions of the two real arrangements.

  The frames of the two kernel programs are the generated ones; the reference's frame is its generated run with
  the result dropped; the idealization rewrote nothing, so there is nothing to preserve.
-/
import proofs.«144126_j10694468567472_2_alg».proof.Defs
import proofs.«144126_j10694468567472_2_alg».proof.Proof.Gen.Kernel
import proofs.«144126_j10694468567472_2_alg».proof.Proof.Gen.Kernel.Skeleton
import proofs.«144126_j10694468567472_2_alg».proof.Proof.Gen.Kernel.Launch
import proofs.«144126_j10694468567472_2_alg».proof.Proof.Gen.Kernel.Points
import proofs.«144126_j10694468567472_2_alg».proof.Proof.Gen.Kernel.Frame
import proofs.«144126_j10694468567472_2_alg».proof.Proof.Gen.KernelIdeal
import proofs.«144126_j10694468567472_2_alg».proof.Proof.Gen.KernelIdeal.Skeleton
import proofs.«144126_j10694468567472_2_alg».proof.Proof.Gen.KernelIdeal.Launch
import proofs.«144126_j10694468567472_2_alg».proof.Proof.Gen.KernelIdeal.Points
import proofs.«144126_j10694468567472_2_alg».proof.Proof.Gen.KernelIdeal.Frame
import proofs.«144126_j10694468567472_2_alg».proof.Proof.Gen.ReferenceIdeal
import proofs.«144126_j10694468567472_2_alg».proof.Proof.Gen.ReferenceIdeal.Run
import proofs.«144126_j10694468567472_2_alg».proof.Proof.Gen.ReferenceIdeal.Read
import proofs.«144126_j10694468567472_2_alg».proof.Proof.Gen.Pre_finite_inputs
import proofs.«144126_j10694468567472_2_alg».proof.Proof.KernelRun
import proofs.«144126_j10694468567472_2_alg».proof.Proof.KernelResult
import proofs.«144126_j10694468567472_2_alg».proof.Proof.RefValue
import proofs.«144126_j10694468567472_2_alg».proof.Proof.FiniteInputs
import Idealize.ShloMosaic.Adequacy
import Idealize.ShloMosaic.Init

noncomputable section

namespace Cert.Proof

open Idealize.ShloMosaic Idealize.ShloMosaic.ValueIdx Idealize.SL.Sem Cert.IdealReal Cert.SageIndex

/-- The two programs compute the same source column from the edge array. -/
theorem srcCol_eq (x1 : IVec Cert.KernelIdeal.S2x1600000 32) :
    Cert.ReferenceIdeal.Read.val_main_v9 (F := Ideal) x1 = Cert.KernelValue.srcCol x1 := rfl

/-- The two programs compute the same target column from the edge array. -/
theorem dstCol_eq (x1 : IVec Cert.KernelIdeal.S2x1600000 32) :
    Cert.ReferenceIdeal.Read.val_main_v12 (F := Ideal) x1 = Cert.KernelValue.dstCol x1 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result is the kernel's: both are real convolutions of the same real arrays over the same
    edge data, in the two arrangements the specification's law joins. -/
theorem results_agree
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v58 m' c
      = Cert.KernelIdeal.Gen.W4 m ρ c (Proc.devRef .tc Cert.KernelIdeal.main_v40) := by
  obtain ⟨f0, f2, f3, f4, f5, f6, f7⟩ := Cert.FiniteInputs.real_of_pre m hpre c
  choose x0 hx0 using f0
  choose x2 hx2 using f2
  choose x3 hx3 using f3
  choose x4 hx4 using f4
  choose x5 hx5 using f5
  choose x6 hx6 using f6
  choose x7 hx7 using f7
  -- the real arrays, by coordinates
  have k0 := eq_lift2 _ (fun (a : Fin 100000) (b : Fin 128) => x0 (ix2 a b)) fun a b => hx0 (ix2 a b)
  have k2 := eq_lift2 _ (fun (a : Fin 128) (b : Fin 128) => x2 (ix2 a b)) fun a b => hx2 (ix2 a b)
  have k4 := eq_lift2 _ (fun (a : Fin 128) (b : Fin 128) => x4 (ix2 a b)) fun a b => hx4 (ix2 a b)
  have k5 := eq_lift2 _ (fun (a : Fin 64) (b : Fin 128) => x5 (ix2 a b)) fun a b => hx5 (ix2 a b)
  have k7 := eq_lift2 _ (fun (a : Fin 64) (b : Fin 128) => x7 (ix2 a b)) fun a b => hx7 (ix2 a b)
  have hk := Cert.KernelValue.result_eq m ρ c _ _ (fun q : Fin 128 => x3 (ix1 q)) _ _ (fun j : Fin 64 => x6 (ix1 j)) _
    k0 k2 (fun q => hx3 (ix1 q)) k4 k5 (fun j => hx6 (ix1 j)) k7
  rw [hk, Cert.SageSpec.outProjFirst_eq_outAggFirst, Cert.ReferenceIdeal.Read.val_main_v58_eq]
  refine eq_lift2 _ _ fun r j => ?_
  rw [Cert.RefValue.result_apply _ _ _ _ _ _ _ _ (fun (a : Fin 100000) (b : Fin 128) => x0 (ix2 a b))
    (fun (a : Fin 128) (b : Fin 128) => x2 (ix2 a b)) (fun q : Fin 128 => x3 (ix1 q))
    (fun (a : Fin 128) (b : Fin 128) => x4 (ix2 a b)) (fun (a : Fin 64) (b : Fin 128) => x5 (ix2 a b))
    (fun j : Fin 64 => x6 (ix1 j)) (fun (a : Fin 64) (b : Fin 128) => x7 (ix2 a b))
    (fun a b => (congrFun e0 (ix2 a b)).trans (hx0 (ix2 a b))) (fun a b => (congrFun e2 (ix2 a b)).trans (hx2 (ix2 a b)))
    (fun a => (congrFun e3 (ix1 a)).trans (hx3 (ix1 a))) (fun a b => (congrFun e4 (ix2 a b)).trans (hx4 (ix2 a b)))
    (fun a b => (congrFun e5 (ix2 a b)).trans (hx5 (ix2 a b))) (fun a => (congrFun e6 (ix1 a)).trans (hx6 (ix1 a)))
    (fun a b => (congrFun e7 (ix2 a b)).trans (hx7 (ix2 a b))) r j,
    e1, srcCol_eq, dstCol_eq]

theorem preserves : Cert.preserves_Kernel_KernelIdeal := trivial

theorem algebraic : Cert.algebraic_KernelIdeal_ReferenceIdeal := by
  intro m ρ m' ρ' hpre hagree
  refine ⟨fun c => Cert.KernelIdeal.Gen.W4 m ρ c (Proc.devRef .tc Cert.KernelIdeal.main_v40),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  exact results_agree m ρ m' hpre c e0 e1 e2 e3 e4 e5 e6 e7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
